-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x1024 : Shape := ⟨2, ![1024, 1024]⟩
abbrev S64x1024x256 : Shape := ⟨3, ![64, 1024, 256]⟩
abbrev S2048x256 : Shape := ⟨2, ![2048, 256]⟩
abbrev S2048x1024 : Shape := ⟨2, ![2048, 1024]⟩
abbrev S2048 : Shape := ⟨1, ![2048]⟩
abbrev S1024 : Shape := ⟨1, ![1024]⟩
abbrev S256x1280 : Shape := ⟨2, ![256, 1280]⟩
abbrev S1024x1280 : Shape := ⟨2, ![1024, 1280]⟩
abbrev S128x1024 : Shape := ⟨2, ![128, 1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x1024x256 : S_.BroadcastsInDim S64x1024x256 (![] : Fin 0 → Fin S64x1024x256.rank)
  reducesTo_S64x1024x256_S_d0_1_2 : S64x1024x256.ReducesTo [0, 1, 2] S_
  bcast_S_S2048x256 : S_.BroadcastsInDim S2048x256 (![] : Fin 0 → Fin S2048x256.rank)
  reducesTo_S2048x256_S_d0_1 : S2048x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_
  bcast_S_S256x1280 : S_.BroadcastsInDim S256x1280 (![] : Fin 0 → Fin S256x1280.rank)
  reducesTo_S256x1280_S_d0_1 : S256x1280.ReducesTo [0, 1] S_
  bcast_S_S1024x1280 : S_.BroadcastsInDim S1024x1280 (![] : Fin 0 → Fin S1024x1280.rank)
  reducesTo_S1024x1280_S_d0_1 : S1024x1280.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part3 {F : FTy → Type} [FloatOps F] (main_arg11 : FVec F S128x1024 .f32) (main_v48 : IVec S_ 1) (main_v49 : FVec F S1024x1280 .f32) (main_v50 : FVec F S1024x1280 .f32) : IVec S_ 1 :=
  let main_v51 : IVec S1024x1280 1 := cmpf .olt main_v49 main_v50
  let main_c_19 : IVec S_ 1 := constantI S_ 1 1#1
  let main_v52 : IVec S_ 1 := (fun x v => Host.reduce IntOp.andi x v reducesTo_S1024x1280_S_d0_1 h_S_) main_v51 main_c_19
  let main_v53 : IVec S_ 1 := andi main_v48 main_v52
  let main_v54 : FVec F S128x1024 .f32 := Host.absf main_arg11
  let main_cst_20 : FVec F S_ .f32 := constant S_ .f32 0x7F800000#32
  let main_v55 : FVec F S128x1024 .f32 := broadcastInDim S128x1024 ![] bcast_S_S128x1024 main_cst_20
  let main_v56 : IVec S128x1024 1 := cmpf .olt main_v54 main_v55
  let main_c_21 : IVec S_ 1 := constantI S_ 1 1#1
  let main_v57 : IVec S_ 1 := (fun x v => Host.reduce IntOp.andi x v reducesTo_S128x1024_S_d0_1 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S256x1280 .f32) (main_arg10 : FVec F S1024x1280 .f32) (main_arg11 : FVec F S128x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S256x1280 .f32 := Host.absf main_arg9
  let main_cst_16 : FVec F S_ .f32 := constant S_ .f32 0x7F800000#32
  let main_v45 : FVec F S256x1280 .f32 := broadcastInDim S256x1280 ![] bcast_S_S256x1280 main_cst_16
  let main_v46 : IVec S256x1280 1 := cmpf .olt main_v44 main_v45
  let main_c_17 : IVec S_ 1 := constantI S_ 1 1#1
  let main_v47 : IVec S_ 1 := (fun x v => Host.reduce IntOp.andi x v reducesTo_S256x1280_S_d0_1 h_S_) main_v46 main_c_17
  let main_v48 : IVec S_ 1 := andi main_v43 main_v47
  let main_v49 : FVec F S1024x1280 .f32 := Host.absf main_arg10
  let main_cst_18 : FVec F S_ .f32 := constant S_ .f32 0x7F800000#32
  let main_v50 : FVec F S1024x1280 .f32 := broadcastInDim S1024x1280 ![] bcast_S_S1024x1280 main_cst_18
  fn_part3 (F := F) main_arg11 main_v48 main_v49 main_v50

def fn_part1 {F : FTy → Type} [FloatOps F] (main_arg4 : FVec F S2048x1024 .f32) (main_arg5 : FVec F S2048 .f32) (main_arg6 : FVec F S1024x256 .f32) (main_arg7 : FVec F S1024x1024 .f32) (main_arg8 : FVec F S1024 .f32) (main_arg9 : FVec F S256x1280 .f32) (main_arg10 : FVec F S1024x1280 .f32) (main_arg11 : FVec F S128x1024 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x256 .f32) (main_arg1 : FVec F S1024x1024 .f32) (main_arg2 : FVec F S64x1024x256 .f32) (main_arg3 : FVec F S2048x256 .f32) (main_arg4 : FVec F S2048x1024 .f32) (main_arg5 : FVec F S2048 .f32) (main_arg6 : FVec F S1024x256 .f32) (main_arg7 : FVec F S1024x1024 .f32) (main_arg8 : FVec F S1024 .f32) (main_arg9 : FVec F S256x1280 .f32) (main_arg10 : FVec F S1024x1280 .f32) (main_arg11 : FVec F S128x1024 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64x1024x256 .f32 := Host.absf main_arg2
  let main_cst_2 : FVec F S_ .f32 := constant S_ .f32 0x7F800000#32
  let main_v10 : FVec F S64x1024x256 .f32 := broadcastInDim S64x1024x256 ![] bcast_S_S64x1024x256 main_cst_2
  let main_v11 : IVec S64x1024x256 1 := cmpf .olt main_v9 main_v10
  let main_c_3 : IVec S_ 1 := constantI S_ 1 1#1
  let main_v12 : IVec S_ 1 := (fun x v => Host.reduce IntOp.andi x v reducesTo_S64x1024x256_S_d0_1_2 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_arg10 main_arg11 main_v13 main_v16
-- ==== Kernel.lean ====
abbrev S1024x256 : Shape := ⟨2, ![1024, 256]⟩
abbrev S1024x1024 : Shape := ⟨2, ![1024, 1024]⟩
abbrev S64x1024x256 : Shape := ⟨3, ![64, 1024, 256]⟩
abbrev S2048x256 : Shape := ⟨2, ![2048, 256]⟩
abbrev S2048x1024 : Shape := ⟨2, ![2048, 1024]⟩
abbrev S2048 : Shape := ⟨1, ![2048]⟩
abbrev S1024 : Shape := ⟨1, ![1024]⟩
abbrev S256x1280 : Shape := ⟨2, ![256, 1280]⟩
abbrev S1024x1280 : Shape := ⟨2, ![1024, 1280]⟩
abbrev S128x1024 : Shape := ⟨2, ![128, 1024]⟩
abbrev S256x2048 : Shape := ⟨2, ![256, 2048]⟩
abbrev S1024x2048 : Shape := ⟨2, ![1024, 2048]⟩
abbrev S1x2048 : Shape := ⟨2, ![1, 2048]⟩
abbrev S256x1024 : Shape := ⟨2, ![256, 1024]⟩
abbrev S1x1024 : Shape := ⟨2, ![1, 1024]⟩
abbrev S256x256 : Shape := ⟨2, ![256, 256]⟩
abbrev S1024x128 : Shape := ⟨2, ![1024, 128]⟩
abbrev S64x128x256 : Shape := ⟨3, ![64, 128, 256]⟩
abbrev S128x128 : Shape := ⟨2, ![128, 128]⟩
abbrev S128x256 : Shape := ⟨2, ![128, 256]⟩
abbrev S8192x256 : Shape := ⟨2, ![8192, 256]⟩
abbrev S1x128x256 : Shape := ⟨3, ![1, 128, 256]⟩

abbrev nBuf : Space → Nat
  | .hbm => 38
  | .vmem => 23
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S64x1024x256, .f32⟩
  | .hbm, ⟨3, _⟩ => ⟨S2048x256, .f32⟩
  | .hbm, ⟨4, _⟩ => ⟨S2048x1024, .f32⟩
  | .hbm, ⟨5, _⟩ => ⟨S2048, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S256x1280, .f32⟩
  | .hbm, ⟨10, _⟩ => ⟨S1024x1280, .f32⟩
  | .hbm, ⟨11, _⟩ => ⟨S128x1024, .f32⟩
  | .hbm, ⟨12, _⟩ => ⟨S256x2048, .f32⟩
  | .hbm, ⟨13, _⟩ => ⟨S256x2048, .bf16⟩
  | .hbm, ⟨14, _⟩ => ⟨S1024x2048, .f32⟩
  | .hbm, ⟨15, _⟩ => ⟨S1024x2048, .bf16⟩
  | .hbm, ⟨16, _⟩ => ⟨S1x2048, .f32⟩
  | .hbm, ⟨17, _⟩ => ⟨S256x1024, .f32⟩
  | .hbm, ⟨18, _⟩ => ⟨S256x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S1024x1024, .f32⟩
  | .hbm, ⟨23, _⟩ => ⟨S256x1024, .f32⟩
  | .hbm, ⟨24, _⟩ => ⟨S256x256, .f32⟩
  | .hbm, ⟨25, _⟩ => ⟨S1024x256, .f32⟩
  | .hbm, ⟨26, _⟩ => ⟨S1024x256, .bf16⟩
  | .hbm, ⟨27, _⟩ => ⟨S256x256, .f32⟩
  | .hbm, ⟨28, _⟩ => ⟨S256x256, .bf16⟩
  | .hbm, ⟨29, _⟩ => ⟨S1024x1024, .f32⟩
  | .hbm, ⟨30, _⟩ => ⟨S1024x256, .f32⟩
  | .hbm, ⟨31, _⟩ => ⟨S1024x1024, .f32⟩
  | .hbm, ⟨32, _⟩ => ⟨S1024x1024, .bf16⟩
  | .hbm, ⟨33, _⟩ => ⟨S256x1024, .f32⟩
  | .hbm, ⟨34, _⟩ => ⟨S256x1024, .bf16⟩
  | .hbm, ⟨35, _⟩ => ⟨S1024x128, .f32⟩
  | .hbm, ⟨36, _⟩ => ⟨S1024x128, .bf16⟩
  | .hbm, ⟨37, _⟩ => ⟨S1024x128, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S1024x2048, .bf16⟩
  | .local _ .vmem, ⟨6, _⟩ => ⟨S1x2048, .f32⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S128x1024, .f32⟩
  | .local _ .vmem, ⟨13, _⟩ => ⟨S128x1024, .f32⟩
  | .local _ .vmem, ⟨14, _⟩ => ⟨S64x128x256, .f32⟩
  | .local _ .vmem, ⟨15, _⟩ => ⟨S64x128x256, .f32⟩
  | .local _ .vmem, ⟨16, _⟩ => ⟨S1024x256, .bf16⟩
  | .local _ .vmem, ⟨17, _⟩ => ⟨S256x256, .bf16⟩
  | .local _ .vmem, ⟨18, _⟩ => ⟨S1024x1024, .bf16⟩
  | .local _ .vmem, ⟨19, _⟩ => ⟨S256x1024, .bf16⟩
  | .local _ .vmem, ⟨20, _⟩ => ⟨S1024x128, .bf16⟩
  | .local _ .vmem, ⟨21, _⟩ => ⟨S128x128, .f32⟩
  | .local _ .vmem, ⟨22, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S2048x256_S256x2048_1_0 : S2048x256.Transposes [1, 0] S256x2048
  bitsLt_bf16_f32 : FTy.bits .bf16 < FTy.bits .f32
  transposes_S2048x1024_S1024x2048_1_0 : S2048x1024.Transposes [1, 0] S1024x2048
  shapeCasts_S2048_S1x2048 : S2048.ShapeCasts S1x2048
  transposes_S1024x256_S256x1024_1_0 : S1024x256.Transposes [1, 0] S256x1024
  transposes_S1024x1024_S1024x1024_1_0 : S1024x1024.Transposes [1, 0] S1024x1024
  shapeCasts_S1024_S1x1024 : S1024.ShapeCasts S1x1024
  inb_S256x256_S256x256_0_0 : ∀ a, (![0, 0] : Fin 2 → Nat) a + S256x256.size a ≤ S256x256.size a
  h_S256x256 : 0 < S256x256.numel
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1280_S256x1024_0_0 : S256x1280.Slices ![0, 0] S256x1024
  slices_S256x1280_S256x256_0_1024 : S256x1280.Slices ![0, 1024] S256x256
  transposes_S256x1024_S1024x256_1_0 : S256x1024.Transposes [1, 0] S1024x256
  transposes_S256x256_S256x256_1_0 : S256x256.Transposes [1, 0] S256x256
  slices_S1024x1280_S1024x1024_0_0 : S1024x1280.Slices ![0, 0] S1024x1024
  slices_S1024x1280_S1024x256_0_1024 : S1024x1280.Slices ![0, 1024] S1024x256
  transposes_S128x1024_S1024x128_1_0 : S128x1024.Transposes [1, 0] S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S64x128x256_S64x128x256_0_0_0 : ∀ a, (![0, 0, 0] : Fin 3 → Nat) a + S64x128x256.size a ≤ S64x128x256.size a
  h_S64x128x256 : 0 < S64x128x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S64x128x256_S8192x256 : S64x128x256.ShapeCasts S8192x256
  shapeCasts_S256x256_S256x256 : S256x256.ShapeCasts S256x256
  shapeCasts_S8192x256_S64x128x256 : S8192x256.ShapeCasts S64x128x256
  shapeCasts_S128x256_S1x128x256 : S128x256.ShapeCasts S1x128x256
  broadcasts_S1x128x256_S64x128x256 : S1x128x256.Broadcasts S64x128x256
  reduces_S64x128x256_S128x256 : S64x128x256.Reduces [0] S128x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  dot_S256x256_S256x2048_S256x2048_1_0_0_1_n_n_wf : DotDims.WF S256x256 S256x2048 S256x2048 [1] [0] [0] [1] [] []
  dot_S256x1024_S1024x2048_S256x2048_1_0_0_1_n_n_wf : DotDims.WF S256x1024 S1024x2048 S256x2048 [1] [0] [0] [1] [] []
  dot_S256x256_S256x1024_S256x1024_1_0_0_1_n_n_wf : DotDims.WF S256x256 S256x1024 S256x1024 [1] [0] [0] [1] [] []
  dot_S256x1024_S1024x1024_S256x1024_1_0_0_1_n_n_wf : DotDims.WF S256x1024 S1024x1024 S256x1024 [1] [0] [0] [1] [] []
  dot_S128x1024_S1024x256_S128x256_1_0_0_1_n_n_wf : DotDims.WF S128x1024 S1024x256 S128x256 [1] [0] [0] [1] [] []
  dot_S8192x256_S256x256_S8192x256_1_0_0_1_n_n_wf : DotDims.WF S8192x256 S256x256 S8192x256 [1] [0] [0] [1] [] []
  dot_S128x1024_S1024x1024_S128x1024_1_0_0_1_n_n_wf : DotDims.WF S128x1024 S1024x1024 S128x1024 [1] [0] [0] [1] [] []
  dot_S128x256_S256x1024_S128x1024_1_0_0_1_n_n_wf : DotDims.WF S128x256 S256x1024 S128x1024 [1] [0] [0] [1] [] []
  dot_S128x1024_S1024x128_S128x128_1_0_0_1_n_n_wf : DotDims.WF S128x1024 S1024x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .f32 = 32 ∨ (Rect.block (s := S1024x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S1024x1024.size a
  hwx0_8 : ∀ i : grid0.Coords, EltTy.bits .f32 = 32 ∨ (Rect.block (s := S1024x1024) S256x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128x256.size a ≤ S64x1024x256.size a
  hwx1_1 : ∀ i : grid1.Coords, EltTy.bits .f32 = 32 ∨ (Rect.block (s := S64x1024x256) S64x128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S1024x256.size a
  hwx1_2 : ∀ i : grid1.Coords, EltTy.bits .bf16 = 32 ∨ (Rect.block (s := S1024x256) S1024x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S256x1024.size a
  hwx1_5 : ∀ i : grid1.Coords, EltTy.bits .bf16 = 32 ∨ (Rect.block (s := S256x1024) S256x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .bf16 = 32 ∨ (Rect.block (s := S1024x128) S1024x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S1024x128.size a
  hwx1_7 : ∀ i : grid1.Coords, EltTy.bits .f32 = 32 ∨ (Rect.block (s := S1024x128) S128x128.size (cc1_transform_7 i) (hinb1_7 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S256x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1024x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1024x256 : Shape := ⟨2, ![1024, 256]⟩
abbrev S1024x1024 : Shape := ⟨2, ![1024, 1024]⟩
abbrev S64x1024x256 : Shape := ⟨3, ![64, 1024, 256]⟩
abbrev S2048x256 : Shape := ⟨2, ![2048, 256]⟩
abbrev S2048x1024 : Shape := ⟨2, ![2048, 1024]⟩
abbrev S2048 : Shape := ⟨1, ![2048]⟩
abbrev S1024 : Shape := ⟨1, ![1024]⟩
abbrev S256x1280 : Shape := ⟨2, ![256, 1280]⟩
abbrev S1024x1280 : Shape := ⟨2, ![1024, 1280]⟩
abbrev S128x1024 : Shape := ⟨2, ![128, 1024]⟩
abbrev S256x2048 : Shape := ⟨2, ![256, 2048]⟩
abbrev S1024x2048 : Shape := ⟨2, ![1024, 2048]⟩
abbrev S1x2048 : Shape := ⟨2, ![1, 2048]⟩
abbrev S_ : Shape := ⟨0, ![]⟩
abbrev S256x1024 : Shape := ⟨2, ![256, 1024]⟩
abbrev S1x1024 : Shape := ⟨2, ![1, 1024]⟩
abbrev S1024x64x256 : Shape := ⟨3, ![1024, 64, 256]⟩
abbrev S256x256 : Shape := ⟨2, ![256, 256]⟩
abbrev S1024x1x256 : Shape := ⟨3, ![1024, 1, 256]⟩
abbrev S1024x128 : Shape := ⟨2, ![1024, 128]⟩

abbrev nBuf : Space → Nat
  | .hbm => 107
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S64x1024x256, .f32⟩
  | .hbm, ⟨3, _⟩ => ⟨S2048x256, .f32⟩
  | .hbm, ⟨4, _⟩ => ⟨S2048x1024, .f32⟩
  | .hbm, ⟨5, _⟩ => ⟨S2048, .f32⟩
  | .hbm, ⟨6, _⟩ => ⟨S1024x256, .f32⟩
  | .hbm, ⟨7, _⟩ => ⟨S1024x1024, .f32⟩
  | .hbm, ⟨8, _⟩ => ⟨S1024, .f32⟩
  | .hbm, ⟨9, _⟩ => ⟨S256x1280, .f32⟩
  | .hbm, ⟨10, _⟩ => ⟨S1024x1280, .f32⟩
  | .hbm, ⟨11, _⟩ => ⟨S128x1024, .f32⟩
  | .hbm, ⟨12, _⟩ => ⟨S256x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S256x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x64x256, .f32⟩
  | .hbm, ⟨66, _⟩ => ⟨S256x1024, .f32⟩
  | .hbm, ⟨67, _⟩ => ⟨S256x256, .f32⟩
  | .hbm, ⟨68, _⟩ => ⟨S1024x256, .f32⟩
  | .hbm, ⟨69, _⟩ => ⟨S1024x256, .f32⟩
  | .hbm, ⟨70, _⟩ => ⟨S1024x1x256, .f32⟩
  | .hbm, ⟨71, _⟩ => ⟨S1024x64x256, .f32⟩
  | .hbm, ⟨72, _⟩ => ⟨S1024x64x256, .f32⟩
  | .hbm, ⟨73, _⟩ => ⟨S1024x64x256, .f32⟩
  | .hbm, ⟨74, _⟩ => ⟨S_, .f32⟩
  | .hbm, ⟨75, _⟩ => ⟨S1024x64x256, .f32⟩
  | .hbm, ⟨76, _⟩ => ⟨S1024x64x256, .f32⟩
  | .hbm, ⟨77, _⟩ => ⟨S_, .f32⟩
  | .hbm, ⟨78, _⟩ => ⟨S1024x64x256, .f32⟩
  | .hbm, ⟨79, _⟩ => ⟨S1024x64x256, .f32⟩
  | .hbm, ⟨80, _⟩ => ⟨S_, .f32⟩
  | .hbm, ⟨81, _⟩ => ⟨S1024x256, .f32⟩
  | .hbm, ⟨82, _⟩ => ⟨S_, .f32⟩
  | .hbm, ⟨83, _⟩ => ⟨S1024x256, .f32⟩
  | .hbm, ⟨84, _⟩ => ⟨S1024x256, .f32⟩
  | .hbm, ⟨85, _⟩ => ⟨S1024x1x256, .f32⟩
  | .hbm, ⟨86, _⟩ => ⟨S1024x64x256, .f32⟩
  | .hbm, ⟨87, _⟩ => ⟨S1024x64x256, .f32⟩
  | .hbm, ⟨88, _⟩ => ⟨S1024x64x256, .f32⟩
  | .hbm, ⟨89, _⟩ => ⟨S_, .f32⟩
  | .hbm, ⟨90, _⟩ => ⟨S1024x256, .f32⟩
  | .hbm, ⟨91, _⟩ => ⟨S1024x1x256, .f32⟩
  | .hbm, ⟨92, _⟩ => ⟨S1024x64x256, .f32⟩
  | .hbm, ⟨93, _⟩ => ⟨S1024x64x256, .f32⟩
  | .hbm, ⟨94, _⟩ => ⟨S1024x64x256, .f32⟩
  | .hbm, ⟨95, _⟩ => ⟨S_, .f32⟩
  | .hbm, ⟨96, _⟩ => ⟨S1024x256, .f32⟩
  | .hbm, ⟨97, _⟩ => ⟨S1024x1024, .f32⟩
  | .hbm, ⟨98, _⟩ => ⟨S1024x256, .f32⟩
  | .hbm, ⟨99, _⟩ => ⟨S1024x1024, .f32⟩
  | .hbm, ⟨100, _⟩ => ⟨S1024x1024, .f32⟩
  | .hbm, ⟨101, _⟩ => ⟨S256x1024, .f32⟩
  | .hbm, ⟨102, _⟩ => ⟨S1024x1024, .f32⟩
  | .hbm, ⟨103, _⟩ => ⟨S1024x1024, .f32⟩
  | .hbm, ⟨104, _⟩ => ⟨S1024x1024, .f32⟩
  | .hbm, ⟨105, _⟩ => ⟨S1024x128, .f32⟩
  | .hbm, ⟨106, _⟩ => ⟨S1024x128, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  transposes_S2048x256_S256x2048_1_0 : S2048x256.Transposes [1, 0] S256x2048
  transposes_S2048x1024_S1024x2048_1_0 : S2048x1024.Transposes [1, 0] S1024x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  slices_S1024x2048_S1024x1024_0_0 : S1024x2048.Slices ![0, 0] S1024x1024
  bcast_S_S1024x1024 : S_.BroadcastsInDim S1024x1024 (![] : Fin 0 → Fin S1024x1024.rank)
  slices_S1024x2048_S1024x1024_0_1024 : S1024x2048.Slices ![0, 1024] S1024x1024
  transposes_S1024x256_S256x1024_1_0 : S1024x256.Transposes [1, 0] S256x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  transposes_S64x1024x256_S1024x64x256_1_0_2 : S64x1024x256.Transposes [1, 0, 2] S1024x64x256
  slices_S256x1280_S256x1024_0_0 : S256x1280.Slices ![0, 0] S256x1024
  slices_S256x1280_S256x256_0_1024 : S256x1280.Slices ![0, 1024] S256x256
  transposes_S256x1024_S1024x256_1_0 : S256x1024.Transposes [1, 0] S1024x256
  bcast_S1024x256_S1024x1x256_0_2 : S1024x256.BroadcastsInDim S1024x1x256 (![0, 2] : Fin 2 → Fin S1024x1x256.rank)
  bcast_S1024x1x256_S1024x64x256_0_1_2 : S1024x1x256.BroadcastsInDim S1024x64x256 (![0, 1, 2] : Fin 3 → Fin S1024x64x256.rank)
  bcast_S_S1024x64x256 : S_.BroadcastsInDim S1024x64x256 (![] : Fin 0 → Fin S1024x64x256.rank)
  reducesTo_S1024x64x256_S1024x256_d1 : S1024x64x256.ReducesTo [1] S1024x256
  h_S_ : 0 < S_.numel
  bcast_S_S1024x256 : S_.BroadcastsInDim S1024x256 (![] : Fin 0 → Fin S1024x256.rank)
  slices_S1024x1280_S1024x1024_0_0 : S1024x1280.Slices ![0, 0] S1024x1024
  slices_S1024x1280_S1024x256_0_1024 : S1024x1280.Slices ![0, 1024] S1024x256
  transposes_S128x1024_S1024x128_1_0 : S128x1024.Transposes [1, 0] S1024x128
  dot_S1024x256_S256x2048_S1024x2048_1_0_0_1_n_n_wf : DotDims.WF S1024x256 S256x2048 S1024x2048 [1] [0] [0] [1] [] []
  dot_S1024x1024_S1024x2048_S1024x2048_1_0_0_1_n_n_wf : DotDims.WF S1024x1024 S1024x2048 S1024x2048 [1] [0] [0] [1] [] []
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  dot_S1024x64x256_S256x256_S1024x64x256_2_1_01_0_n_n_wf : DotDims.WF S1024x64x256 S256x256 S1024x64x256 [2] [1] [0, 1] [0] [] []
  dot_S1024x1024_S1024x128_S1024x128_1_0_0_1_n_n_wf : DotDims.WF S1024x1024 S1024x128 S1024x128 [1] [0] [0] [1] [] []

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x64x256_S256x256_S1024x64x256_2_1_01_0_n_n : DotDims S1024x64x256 S256x256 S1024x64x256 where
  lhsContracting := [2]
  rhsContracting := [1]
  lhsNonContracting := [0, 1]
  rhsNonContracting := [0]
  lhsBatch := []
  rhsBatch := []
  wf := dot_S1024x64x256_S256x256_S1024x64x256_2_1_01_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.KernelRun.lean ====
/-
  The idealized kernel's run with its two result arrays named.

  @main is four segments: the host stretch that transposes and re-types the cell's weights, the cell's region (a grid
  of four blocks of 256 rows), the host stretch that cuts, transposes and re-types the attention weights, and the
  attention region (a grid of eight blocks of 128 rows). Every weakly fair execution from a memory with zero counters
  terminates without a fault; in the final state every buffer that outlives the regions holds the contents of the last
  segment boundary, the fold `W4` of the four segments over the launch memory. Read at the two result buffers this
  names the new state and the factors; read at the twelve arguments it gives them back as launched.
-/
import proofs.«120470_j13391708029287_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result buffers end at the last boundary's contents, the arguments as launched. -/
theorem run_results : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)), h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.ResultRun

end
-- ==== Proof.Spec.lean ====
/-
  The mathematics of one step of a gated recurrent cell followed by additive attention over source steps.

  Batch row `b` (1024 rows), state size 1024, input size 256, 64 source steps of width 256, 128 read-out factors.
  Every array is given as a function of its coordinates, so that a program's array in any layout (transposed, cut in
  two, re-typed) is an instance by reading it at the right entry.

  The cell.  With the gate pre-activation
      gate(b, n) = Σ_k x(b,k)·Wx(n,k) + Σ_k h(b,k)·Wh(n,k) + bg(n)            (n < 2048),
  the reset gate is r(b,k) = σ(gate(b,k)), the update gate u(b,j) = σ(gate(b,1024+j) + 1), the candidate
      c(b,j) = tanh(Σ_k x(b,k)·Wc(j,k) + Σ_k (r(b,k)·h(b,k))·Wrc(j,k) + bc(j)),
  and the new state is u·h + (1 − u)·c clamped to [−5, 5].

  The attention.  The score of source step s for row b and channel e is
      score(s,b,e) = max(Σ_k g(b,k)·Ag(e,k) + Σ_d src(s,b,d)·As(e,d), 0),
  where g is the new state. A context ctx(b,e), a weighted mean of src(·,b,e) over the steps, feeds
      out(b,j) = tanh(Σ_k g(b,k)·Og(j,k) + Σ_e ctx(b,e)·Os(j,e)),   factors(b,f) = Σ_j out(b,j)·Rf(f,j).
  Two spellings of the context are stated: one quotient of two sums (`ctxQuot`), and the sum of the normalised
  weights of scores shifted by some M(b,e) first (`ctxShift`); they agree when everything in sight is a real number.

  Every quantity is an extended real; σ, tanh, exp are the extended-real functions, a quotient is the total quotient.
-/
import Idealize.ShloMosaic.Lib.ValueIdx
import Idealize.ShloMosaic.PureOps.Ideal

noncomputable section

open scoped BigOperators

namespace Cert.GruAttn

open Idealize.ShloMosaic Idealize.ShloMosaic.ValueIdx

/-- The float words the two programs share: 1, −5, 5 and 0. -/
abbrev one32 : EReal := Ideal.ofBits .f32 0x3F800000#32
abbrev neg5 : EReal := Ideal.ofBits .f32 0xC0A00000#32
abbrev pos5 : EReal := Ideal.ofBits .f32 0x40A00000#32
abbrev zero32 : EReal := Ideal.ofBits .f32 0x00000000#32

/-- Position `k` of the first 1024 of 1280 (or 2048) positions, and position `1024 + d` of the rest. -/
abbrev lo1280 (k : Fin 1024) : Fin 1280 := ⟨k.val, by have := k.isLt; omega⟩
abbrev hi1280 (d : Fin 256) : Fin 1280 := ⟨1024 + d.val, by have := d.isLt; omega⟩
abbrev lo2048 (k : Fin 1024) : Fin 2048 := ⟨k.val, by have := k.isLt; omega⟩
abbrev hi2048 (j : Fin 1024) : Fin 2048 := ⟨1024 + j.val, by have := j.isLt; omega⟩

section Cell

variable {B : ℕ} (x : Fin B → Fin 256 → EReal) (h : Fin B → Fin 1024 → EReal)
  (Wx : Fin 2048 → Fin 256 → EReal) (Wh : Fin 2048 → Fin 1024 → EReal) (bg : Fin 2048 → EReal)
  (Wc : Fin 1024 → Fin 256 → EReal) (Wrc : Fin 1024 → Fin 1024 → EReal) (bc : Fin 1024 → EReal)

/-- The gate pre-activation of row `b`, gate row `n`. -/
def gate (b : Fin B) (n : Fin 2048) : EReal :=
  (∑ k : Fin 256, x b k * Wx n k) + (∑ k : Fin 1024, h b k * Wh n k) + bg n

/-- The reset gate. -/
def reset (b : Fin B) (k : Fin 1024) : EReal := Ideal.logistic (gate x h Wx Wh bg b (lo2048 k))

/-- The update gate (with the forget bias 1). -/
def update (b : Fin B) (j : Fin 1024) : EReal := Ideal.logistic (gate x h Wx Wh bg b (hi2048 j) + one32)

/-- The candidate state. -/
def cand (b : Fin B) (j : Fin 1024) : EReal :=
  Ideal.tanh ((∑ k : Fin 256, x b k * Wc j k) + (∑ k : Fin 1024, (reset x h Wx Wh bg b k * h b k) * Wrc j k) + bc j)

/-- The new state, clamped to [−5, 5]. -/
def state (b : Fin B) (j : Fin 1024) : EReal :=
  min pos5 (max neg5 (update x h Wx Wh bg b j * h b j + (one32 - update x h Wx Wh bg b j) * cand x h Wx Wh bg Wc Wrc bc b j))

/-- The new state of row `b` depends on `x` and `h` through their row `b` only: two batches that agree on a pair of rows
    give the same state there (a block of rows of a batch computes that batch's rows). -/
theorem state_row_congr {B' : ℕ} (x' : Fin B' → Fin 256 → EReal) (h' : Fin B' → Fin 1024 → EReal) (b : Fin B) (b' : Fin B')
    (hx : ∀ k, x b k = x' b' k) (hh : ∀ k, h b k = h' b' k) (j : Fin 1024) :
    state x h Wx Wh bg Wc Wrc bc b j = state x' h' Wx Wh bg Wc Wrc bc b' j := by
  simp only [state, update, cand, reset, gate, hx, hh]

/-- The new state as a [B, 1024] array. -/
def stateArr : FVec Ideal ⟨2, ![B, 1024]⟩ .f32 := fun i => state x h Wx Wh bg Wc Wrc bc (i 0) (i 1)

theorem stateArr_ix2 (b : Fin B) (j : Fin 1024) :
    stateArr x h Wx Wh bg Wc Wrc bc (ix2 b j) = state x h Wx Wh bg Wc Wrc bc b j := rfl

end Cell

section Attention

variable {B : ℕ} (g : Fin B → Fin 1024 → EReal) (src : Fin 64 → Fin B → Fin 256 → EReal)
  (Ag : Fin 256 → Fin 1024 → EReal) (As : Fin 256 → Fin 256 → EReal)
  (Og : Fin 1024 → Fin 1024 → EReal) (Os : Fin 1024 → Fin 256 → EReal) (Rf : Fin 128 → Fin 1024 → EReal)

/-- The state's part of a score: the same for every source step. -/
def stateTerm (b : Fin B) (e : Fin 256) : EReal := ∑ k : Fin 1024, g b k * Ag e k

/-- The source step's part of a score. -/
def srcTerm (s : Fin 64) (b : Fin B) (e : Fin 256) : EReal := ∑ d : Fin 256, src s b d * As e d

/-- The score, clamped below at 0. -/
def score (s : Fin 64) (b : Fin B) (e : Fin 256) : EReal := max (stateTerm g Ag b e + srcTerm src As s b e) zero32

/-- The context as one quotient: Σ_s src·exp(score) over Σ_s exp(score). -/
def ctxQuot (b : Fin B) (e : Fin 256) : EReal :=
  Ideal.div (∑ s : Fin 64, src s b e * Ideal.exp (score g src Ag As s b e)) (∑ s : Fin 64, Ideal.exp (score g src Ag As s b e))

/-- The context as a sum of normalised weights, the scores shifted by `M b e` first:
    Σ_s src · (exp(score − M) / Σ_s' exp(score − M)). -/
def ctxShift (M : Fin B → Fin 256 → EReal) (b : Fin B) (e : Fin 256) : EReal :=
  ∑ s : Fin 64, src s b e * Ideal.div (Ideal.exp (score g src Ag As s b e - M b e))
    (∑ s' : Fin 64, Ideal.exp (score g src Ag As s' b e - M b e))

variable (ctx : Fin B → Fin 256 → EReal)

/-- The attention output. -/
def attnOut (b : Fin B) (j : Fin 1024) : EReal := Ideal.tanh ((∑ k : Fin 1024, g b k * Og j k) + (∑ e : Fin 256, ctx b e * Os j e))

/-- The read-out factors. -/
def factors (b : Fin B) (f : Fin 128) : EReal := ∑ j : Fin 1024, attnOut g Og Os ctx b j * Rf f j

/-- The factors of row `b` depend on the state and the source steps through their row `b` only. -/
theorem factors_quot_row_congr {B' : ℕ} (g' : Fin B' → Fin 1024 → EReal) (src' : Fin 64 → Fin B' → Fin 256 → EReal)
    (b : Fin B) (b' : Fin B') (hg : ∀ k, g b k = g' b' k) (hs : ∀ s d, src s b d = src' s b' d) (f : Fin 128) :
    factors g Og Os Rf (ctxQuot g src Ag As) b f = factors g' Og Os Rf (ctxQuot g' src' Ag As) b' f := by
  simp only [factors, attnOut, ctxQuot, score, stateTerm, srcTerm, hg, hs]

/-- The factors as a [B, 128] array. -/
def factorsArr : FVec Ideal ⟨2, ![B, 128]⟩ .f32 := fun i => factors g Og Os Rf ctx (i 0) (i 1)

theorem factorsArr_ix2 (b : Fin B) (f : Fin 128) : factorsArr g Og Os Rf ctx (ix2 b f) = factors g Og Os Rf ctx b f := rfl

end Attention

end Cert.GruAttn

end
-- ==== Proof.HostReads.lean ====
/-
  What the two regions find in their windows' arrays, read back to the launch memory.

  Before the cell's region the host transposes each weight matrix (entry (k, n) of the transposed array is entry (n, k)
  of the argument), re-types it (the identity on extended reals) and lays each bias vector out as one row. Before the
  attention region it cuts the two wide weight matrices at column 1024 and transposes and re-types each piece: entry
  (p, q) of a piece is entry (q, p) of the argument's first 1024 columns, or entry (q, 1024 + p) of the rest. Neither
  stretch writes an argument, the cell's region writes only the new state, and the second stretch does not touch the
  new state: so the attention region finds the new state as the cell's region left it, and the source steps as launched.
-/
import proofs.«120470_j13391708029287_2_alg».proof.Proof.Gen.KernelIdeal.Frame
import proofs.«120470_j13391708029287_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo Idealize.ShloMosaic.ValueIdx Cert.GruAttn

variable (m : (ℓ : Loc nD τ sig) → Buf (Elt Ideal) ℓ) (ρ : Dev nD → PrngReg) (c : Dev nD)

/-! ## Entry of the cell's region: the first stretch over the launch memory -/

theorem V1_arg0 : V1 m ρ c main_arg0 = m ((c : Thread nD τ).loc main_arg0) := by
  show StableHlo.after hostOps0 (W0 m ρ c) (Proc.devRef .tc main_arg0) = _
  after_results
  all_goals rfl

theorem V1_arg1 : V1 m ρ c main_arg1 = m ((c : Thread nD τ).loc main_arg1) := by
  show StableHlo.after hostOps0 (W0 m ρ c) (Proc.devRef .tc main_arg1) = _
  after_results
  all_goals rfl

theorem V1_v1_at (k : Fin 256) (n : Fin 2048) :
    (V1 m ρ c main_v1 : FVec Ideal S256x2048 .bf16) (ix2 k n) = (m ((c : Thread nD τ).loc main_arg3) : FVec Ideal S2048x256 .f32) (ix2 n k) := by
  have e : (V1 m ρ c main_v1 : FVec Ideal S256x2048 .bf16)
      = truncf (F := Ideal) .bf16 (transpose S256x2048 [1, 0] (m ((c : Thread nD τ).loc main_arg3) : FVec Ideal S2048x256 .f32) transposes_S2048x256_S256x2048_1_0) bitsLt_bf16_f32 := by
    show StableHlo.after hostOps0 (W0 m ρ c) (Proc.devRef .tc main_v1) = _
    after_results
    all_goals rfl
  rw [e]
  exact transpose_apply [1, 0] _ transposes_S2048x256_S256x2048_1_0 (ix2 k n) (ix2 n k) (fun b => match b with
    | ⟨0, _⟩ => rfl
    | ⟨1, _⟩ => rfl)

theorem V1_v3_at (k : Fin 1024) (n : Fin 2048) :
    (V1 m ρ c main_v3 : FVec Ideal S1024x2048 .bf16) (ix2 k n) = (m ((c : Thread nD τ).loc main_arg4) : FVec Ideal S2048x1024 .f32) (ix2 n k) := by
  have e : (V1 m ρ c main_v3 : FVec Ideal S1024x2048 .bf16)
      = truncf (F := Ideal) .bf16 (transpose S1024x2048 [1, 0] (m ((c : Thread nD τ).loc main_arg4) : FVec Ideal S2048x1024 .f32) transposes_S2048x1024_S1024x2048_1_0) bitsLt_bf16_f32 := by
    show StableHlo.after hostOps0 (W0 m ρ c) (Proc.devRef .tc main_v3) = _
    after_results
    all_goals rfl
  rw [e]
  exact transpose_apply [1, 0] _ transposes_S2048x1024_S1024x2048_1_0 (ix2 k n) (ix2 n k) (fun b => match b with
    | ⟨0, _⟩ => rfl
    | ⟨1, _⟩ => rfl)

theorem V1_v6_at (k : Fin 256) (n : Fin 1024) :
    (V1 m ρ c main_v6 : FVec Ideal S256x1024 .bf16) (ix2 k n) = (m ((c : Thread nD τ).loc main_arg6) : FVec Ideal S1024x256 .f32) (ix2 n k) := by
  have e : (V1 m ρ c main_v6 : FVec Ideal S256x1024 .bf16)
      = truncf (F := Ideal) .bf16 (transpose S256x1024 [1, 0] (m ((c : Thread nD τ).loc main_arg6) : FVec Ideal S1024x256 .f32) transposes_S1024x256_S256x1024_1_0) bitsLt_bf16_f32 := by
    show StableHlo.after hostOps0 (W0 m ρ c) (Proc.devRef .tc main_v6) = _
    after_results
    all_goals rfl
  rw [e]
  exact transpose_apply [1, 0] _ transposes_S1024x256_S256x1024_1_0 (ix2 k n) (ix2 n k) (fun b => match b with
    | ⟨0, _⟩ => rfl
    | ⟨1, _⟩ => rfl)

theorem V1_v8_at (k : Fin 1024) (n : Fin 1024) :
    (V1 m ρ c main_v8 : FVec Ideal S1024x1024 .bf16) (ix2 k n) = (m ((c : Thread nD τ).loc main_arg7) : FVec Ideal S1024x1024 .f32) (ix2 n k) := by
  have e : (V1 m ρ c main_v8 : FVec Ideal S1024x1024 .bf16)
      = truncf (F := Ideal) .bf16 (transpose S1024x1024 [1, 0] (m ((c : Thread nD τ).loc main_arg7) : FVec Ideal S1024x1024 .f32) transposes_S1024x1024_S1024x1024_1_0) bitsLt_bf16_f32 := by
    show StableHlo.after hostOps0 (W0 m ρ c) (Proc.devRef .tc main_v8) = _
    after_results
    all_goals rfl
  rw [e]
  exact transpose_apply [1, 0] _ transposes_S1024x1024_S1024x1024_1_0 (ix2 k n) (ix2 n k) (fun b => match b with
    | ⟨0, _⟩ => rfl
    | ⟨1, _⟩ => rfl)

theorem V1_v4_at (n : Fin 2048) :
    (V1 m ρ c main_v4 : FVec Ideal S1x2048 .f32) (ix2 (0 : Fin 1) n) = (m ((c : Thread nD τ).loc main_arg5) : FVec Ideal S2048 .f32) (ix1 n) := by
  have e : (V1 m ρ c main_v4 : FVec Ideal S1x2048 .f32) = shapeCast S1x2048 (m ((c : Thread nD τ).loc main_arg5) : FVec Ideal S2048 .f32) shapeCasts_S2048_S1x2048 := by
    show StableHlo.after hostOps0 (W0 m ρ c) (Proc.devRef .tc main_v4) = _
    after_results
    all_goals rfl
  rw [e]
  exact shapeCast_apply _ shapeCasts_S2048_S1x2048 (ix2 (0 : Fin 1) n) (ix1 n) (by
    rw [Shape.rowMajor_val_one, Shape.rowMajor_val_two]
    show n.val = (0 : Fin 1).val * 2048 + n.val
    simp)

theorem V1_v9_at (n : Fin 1024) :
    (V1 m ρ c main_v9 : FVec Ideal S1x1024 .f32) (ix2 (0 : Fin 1) n) = (m ((c : Thread nD τ).loc main_arg8) : FVec Ideal S1024 .f32) (ix1 n) := by
  have e : (V1 m ρ c main_v9 : FVec Ideal S1x1024 .f32) = shapeCast S1x1024 (m ((c : Thread nD τ).loc main_arg8) : FVec Ideal S1024 .f32) shapeCasts_S1024_S1x1024 := by
    show StableHlo.after hostOps0 (W0 m ρ c) (Proc.devRef .tc main_v9) = _
    after_results
    all_goals rfl
  rw [e]
  exact shapeCast_apply _ shapeCasts_S1024_S1x1024 (ix2 (0 : Fin 1) n) (ix1 n) (by
    rw [Shape.rowMajor_val_one, Shape.rowMajor_val_two]
    show n.val = (0 : Fin 1).val * 1024 + n.val
    simp)

/-! ## Entry of the attention region: the second stretch over what the cell's region left -/

theorem W2_arg2 : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results
    all_goals rfl)

theorem W2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results
    all_goals rfl)

theorem W2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results
    all_goals rfl)

theorem W2_arg11 : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results
    all_goals rfl)

/-- The attention region finds the source steps as launched. -/
theorem V3_arg2 : V3 m ρ c main_arg2 = m ((c : Thread nD τ).loc main_arg2) := by
  show StableHlo.after hostOps1 (W2 m ρ c) (Proc.devRef .tc main_arg2) = _
  after_results
  exact W2_arg2 m ρ c

/-- The attention region finds the new state as the cell's region left it. -/
theorem V3_v10 : V3 m ρ c main_v10 = (dat0 (V1 m ρ) c).arrAt 8 cfg0.N := by
  show StableHlo.after hostOps1 (W2 m ρ c) (Proc.devRef .tc main_v10) = _
  after_results
  exact W2_arr m ρ c 8

theorem V3_v14_at (p : Fin 1024) (q : Fin 256) :
    (V3 m ρ c main_v14 : FVec Ideal S1024x256 .bf16) (ix2 p q) = (m ((c : Thread nD τ).loc main_arg9) : FVec Ideal S256x1280 .f32) (ix2 q (lo1280 p)) := by
  have e : (V3 m ρ c main_v14 : FVec Ideal S1024x256 .bf16)
      = truncf (F := Ideal) .bf16 (transpose S1024x256 [1, 0] (extractStridedSlice S256x1024 ![0, 0] (m ((c : Thread nD τ).loc main_arg9) : FVec Ideal S256x1280 .f32) slices_S256x1280_S256x1024_0_0) transposes_S256x1024_S1024x256_1_0) bitsLt_bf16_f32 := by
    show StableHlo.after hostOps1 (W2 m ρ c) (Proc.devRef .tc main_v14) = _
    after_results
    rw [W2_arg9 m ρ c]
  rw [e, truncf_apply]
  refine (transpose_apply [1, 0] _ transposes_S256x1024_S1024x256_1_0 (ix2 p q) (ix2 q p) (fun b => match b with
    | ⟨0, _⟩ => rfl
    | ⟨1, _⟩ => rfl)).trans ?_
  exact extractStridedSlice_apply ![0, 0] _ slices_S256x1280_S256x1024_0_0 (ix2 q p) (ix2 q (lo1280 p)) (fun a => match a with
    | ⟨0, _⟩ => by show q.val = 0 + q.val; omega
    | ⟨1, _⟩ => by show p.val = 0 + p.val; omega)

theorem V3_v16_at (p : Fin 256) (q : Fin 256) :
    (V3 m ρ c main_v16 : FVec Ideal S256x256 .bf16) (ix2 p q) = (m ((c : Thread nD τ).loc main_arg9) : FVec Ideal S256x1280 .f32) (ix2 q (hi1280 p)) := by
  have e : (V3 m ρ c main_v16 : FVec Ideal S256x256 .bf16)
      = truncf (F := Ideal) .bf16 (transpose S256x256 [1, 0] (extractStridedSlice S256x256 ![0, 1024] (m ((c : Thread nD τ).loc main_arg9) : FVec Ideal S256x1280 .f32) slices_S256x1280_S256x256_0_1024) transposes_S256x256_S256x256_1_0) bitsLt_bf16_f32 := by
    show StableHlo.after hostOps1 (W2 m ρ c) (Proc.devRef .tc main_v16) = _
    after_results
    rw [W2_arg9 m ρ c]
  rw [e, truncf_apply]
  refine (transpose_apply [1, 0] _ transposes_S256x256_S256x256_1_0 (ix2 p q) (ix2 q p) (fun b => match b with
    | ⟨0, _⟩ => rfl
    | ⟨1, _⟩ => rfl)).trans ?_
  exact extractStridedSlice_apply ![0, 1024] _ slices_S256x1280_S256x256_0_1024 (ix2 q p) (ix2 q (hi1280 p)) (fun a => match a with
    | ⟨0, _⟩ => by show q.val = 0 + q.val; omega
    | ⟨1, _⟩ => by show 1024 + p.val = 1024 + p.val; omega)

theorem V3_v20_at (p : Fin 1024) (q : Fin 1024) :
    (V3 m ρ c main_v20 : FVec Ideal S1024x1024 .bf16) (ix2 p q) = (m ((c : Thread nD τ).loc main_arg10) : FVec Ideal S1024x1280 .f32) (ix2 q (lo1280 p)) := by
  have e : (V3 m ρ c main_v20 : FVec Ideal S1024x1024 .bf16)
      = truncf (F := Ideal) .bf16 (transpose S1024x1024 [1, 0] (extractStridedSlice S1024x1024 ![0, 0] (m ((c : Thread nD τ).loc main_arg10) : FVec Ideal S1024x1280 .f32) slices_S1024x1280_S1024x1024_0_0) transposes_S1024x1024_S1024x1024_1_0) bitsLt_bf16_f32 := by
    show StableHlo.after hostOps1 (W2 m ρ c) (Proc.devRef .tc main_v20) = _
    after_results
    rw [W2_arg10 m ρ c]
  rw [e, truncf_apply]
  refine (transpose_apply [1, 0] _ transposes_S1024x1024_S1024x1024_1_0 (ix2 p q) (ix2 q p) (fun b => match b with
    | ⟨0, _⟩ => rfl
    | ⟨1, _⟩ => rfl)).trans ?_
  exact extractStridedSlice_apply ![0, 0] _ slices_S1024x1280_S1024x1024_0_0 (ix2 q p) (ix2 q (lo1280 p)) (fun a => match a with
    | ⟨0, _⟩ => by show q.val = 0 + q.val; omega
    | ⟨1, _⟩ => by show p.val = 0 + p.val; omega)

theorem V3_v22_at (p : Fin 256) (q : Fin 1024) :
    (V3 m ρ c main_v22 : FVec Ideal S256x1024 .bf16) (ix2 p q) = (m ((c : Thread nD τ).loc main_arg10) : FVec Ideal S1024x1280 .f32) (ix2 q (hi1280 p)) := by
  have e : (V3 m ρ c main_v22 : FVec Ideal S256x1024 .bf16)
      = truncf (F := Ideal) .bf16 (transpose S256x1024 [1, 0] (extractStridedSlice S1024x256 ![0, 1024] (m ((c : Thread nD τ).loc main_arg10) : FVec Ideal S1024x1280 .f32) slices_S1024x1280_S1024x256_0_1024) transposes_S1024x256_S256x1024_1_0) bitsLt_bf16_f32 := by
    show StableHlo.after hostOps1 (W2 m ρ c) (Proc.devRef .tc main_v22) = _
    after_results
    rw [W2_arg10 m ρ c]
  rw [e, truncf_apply]
  refine (transpose_apply [1, 0] _ transposes_S1024x256_S256x1024_1_0 (ix2 p q) (ix2 q p) (fun b => match b with
    | ⟨0, _⟩ => rfl
    | ⟨1, _⟩ => rfl)).trans ?_
  exact extractStridedSlice_apply ![0, 1024] _ slices_S1024x1280_S1024x256_0_1024 (ix2 q p) (ix2 q (hi1280 p)) (fun a => match a with
    | ⟨0, _⟩ => by show q.val = 0 + q.val; omega
    | ⟨1, _⟩ => by show 1024 + p.val = 1024 + p.val; omega)

theorem V3_v24_at (j : Fin 1024) (f : Fin 128) :
    (V3 m ρ c main_v24 : FVec Ideal S1024x128 .bf16) (ix2 j f) = (m ((c : Thread nD τ).loc main_arg11) : FVec Ideal S128x1024 .f32) (ix2 f j) := by
  have e : (V3 m ρ c main_v24 : FVec Ideal S1024x128 .bf16)
      = truncf (F := Ideal) .bf16 (transpose S1024x128 [1, 0] (m ((c : Thread nD τ).loc main_arg11) : FVec Ideal S128x1024 .f32) transposes_S128x1024_S1024x128_1_0) bitsLt_bf16_f32 := by
    show StableHlo.after hostOps1 (W2 m ρ c) (Proc.devRef .tc main_v24) = _
    after_results
    rw [W2_arg11 m ρ c]
  rw [e]
  exact transpose_apply [1, 0] _ transposes_S128x1024_S1024x128_1_0 (ix2 j f) (ix2 f j) (fun b => match b with
    | ⟨0, _⟩ => rfl
    | ⟨1, _⟩ => rfl)

end Cert.KernelIdeal.HostReads

end
-- ==== Proof.Results.lean ====
/-
  The two results as functions of the twelve argument arrays.

  The arguments, in the programs' order: x [1024,256], h [1024,1024], src [64,1024,256], the gate weights on x
  [2048,256] and on h [2048,1024], the gate bias [2048], the candidate weights on x [1024,256] and on r·h [1024,1024],
  the candidate bias [1024], the score weights [256,1280] (columns 0–1023 meet the new state, columns 1024–1279 the
  source step), the output weights [1024,1280] (cut the same way) and the read-out weights [128,1024].
  `newState` is the cell's result; `factorsWith ctx` the read-out factors over a given context; `factorsQuot` the factors
  over the one-quotient context.
-/
import proofs.«120470_j13391708029287_2_alg».proof.Proof.Spec

noncomputable section

namespace Cert.GruAttn

open Idealize.ShloMosaic Idealize.ShloMosaic.ValueIdx

variable (a0 : FVec Ideal ⟨2, ![1024, 256]⟩ .f32) (a1 : FVec Ideal ⟨2, ![1024, 1024]⟩ .f32)
  (a2 : FVec Ideal ⟨3, ![64, 1024, 256]⟩ .f32) (a3 : FVec Ideal ⟨2, ![2048, 256]⟩ .f32) (a4 : FVec Ideal ⟨2, ![2048, 1024]⟩ .f32)
  (a5 : FVec Ideal ⟨1, ![2048]⟩ .f32) (a6 : FVec Ideal ⟨2, ![1024, 256]⟩ .f32) (a7 : FVec Ideal ⟨2, ![1024, 1024]⟩ .f32)
  (a8 : FVec Ideal ⟨1, ![1024]⟩ .f32) (a9 : FVec Ideal ⟨2, ![256, 1280]⟩ .f32) (a10 : FVec Ideal ⟨2, ![1024, 1280]⟩ .f32)
  (a11 : FVec Ideal ⟨2, ![128, 1024]⟩ .f32)

/-- The cell's result: the new state, of the eight arrays the cell reads. -/
def newState : FVec Ideal ⟨2, ![1024, 1024]⟩ .f32 :=
  stateArr (fun b k => a0 (ix2 b k)) (fun b k => a1 (ix2 b k)) (fun n k => a3 (ix2 n k)) (fun n k => a4 (ix2 n k))
    (fun n => a5 (ix1 n)) (fun j k => a6 (ix2 j k)) (fun j k => a7 (ix2 j k)) (fun j => a8 (ix1 j))

/-- The new state by its coordinates. -/
def newStateAt : Fin 1024 → Fin 1024 → EReal := fun b k => newState a0 a1 a3 a4 a5 a6 a7 a8 (ix2 b k)

/-- The source steps by their coordinates. -/
def srcAt : Fin 64 → Fin 1024 → Fin 256 → EReal := fun s b d => a2 (ix3 s b d)

/-- The score weights meeting the new state, and those meeting the source step. -/
def scoreWg : Fin 256 → Fin 1024 → EReal := fun e k => a9 (ix2 e (lo1280 k))
def scoreWs : Fin 256 → Fin 256 → EReal := fun e d => a9 (ix2 e (hi1280 d))

/-- The read-out factors over a context `ctx`. -/
def factorsWith (ctx : Fin 1024 → Fin 256 → EReal) : FVec Ideal ⟨2, ![1024, 128]⟩ .f32 :=
  factorsArr (newStateAt a0 a1 a3 a4 a5 a6 a7 a8) (fun j k => a10 (ix2 j (lo1280 k))) (fun j e => a10 (ix2 j (hi1280 e)))
    (fun f j => a11 (ix2 f j)) ctx

/-- The one-quotient context of the arguments. -/
def ctxOfQuot : Fin 1024 → Fin 256 → EReal :=
  ctxQuot (newStateAt a0 a1 a3 a4 a5 a6 a7 a8) (srcAt a2) (scoreWg a9) (scoreWs a9)

/-- The read-out factors over the one-quotient context. -/
def factorsQuot : FVec Ideal ⟨2, ![1024, 128]⟩ .f32 :=
  factorsWith a0 a1 a3 a4 a5 a6 a7 a8 a10 a11 (ctxOfQuot a0 a1 a2 a3 a4 a5 a6 a7 a8 a9)

end Cert.GruAttn

end
-- ==== Proof.KernelValue.lean ====
/-
  The idealized kernel's two results as functions of the launch memory.

  The run ends with the two result buffers at the last segment boundary's contents. The factors' buffer is the
  attention region's output array: the attention's value at the contents that region was entered with. The new state's
  buffer is an input window of the attention region, so it still holds what that region was entered with, which is what
  the cell's region left: the cell's value at the contents the cell's region was entered with. Reading each region's
  entry contents back to the launch memory (the host's transposes, cuts and bias rows) gives both results as the
  functions `newState` and `factorsQuot` of the twelve arguments.
  The two regions' values enter as hypotheses (`CellClaim`, `AttnClaim`: what each region's grid of blocks leaves in
  its output array, at any entry contents); they are proved apart, block by block.
-/
import proofs.«120470_j13391708029287_2_alg».proof.Proof.KernelRun
import proofs.«120470_j13391708029287_2_alg».proof.Proof.HostReads
import proofs.«120470_j13391708029287_2_alg».proof.Proof.Results
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.GruAttn Cert.KernelIdeal.HostReads

/-- What the cell's region leaves in its output array, at any entry contents `V`: the new state of the rows, weights
    and bias rows found in its eight input arrays (weights transposed, a bias as the one row of a [1, n] array). -/
def CellClaim : Prop :=
  ∀ (V : (c : Dev nD) → (b : Ref sig .tc) → Buf (Elt Ideal) ((c : Thread nD τ).loc b)) (c : Dev nD),
    (dat0 (F := Ideal) V c).arrAt 8 cfg0.N
      = stateArr (fun b k => (V c main_arg0 : FVec Ideal S1024x256 .f32) (ix2 b k))
          (fun b k => (V c main_arg1 : FVec Ideal S1024x1024 .f32) (ix2 b k))
          (fun n k => (V c main_v1 : FVec Ideal S256x2048 .bf16) (ix2 k n))
          (fun n k => (V c main_v3 : FVec Ideal S1024x2048 .bf16) (ix2 k n))
          (fun n => (V c main_v4 : FVec Ideal S1x2048 .f32) (ix2 (0 : Fin 1) n))
          (fun j k => (V c main_v6 : FVec Ideal S256x1024 .bf16) (ix2 k j))
          (fun j k => (V c main_v8 : FVec Ideal S1024x1024 .bf16) (ix2 k j))
          (fun j => (V c main_v9 : FVec Ideal S1x1024 .f32) (ix2 (0 : Fin 1) j))

/-- What the attention region leaves in its output array, at any entry contents `V`: the factors over the one-quotient
    context, of the state, source steps and (transposed) weight pieces found in its seven input arrays. -/
def AttnClaim : Prop :=
  ∀ (V : (c : Dev nD) → (b : Ref sig .tc) → Buf (Elt Ideal) ((c : Thread nD τ).loc b)) (c : Dev nD),
    (dat1 (F := Ideal) V c).arrAt 7 cfg1.N
      = factorsArr (fun b k => (V c main_v10 : FVec Ideal S1024x1024 .f32) (ix2 b k))
          (fun j k => (V c main_v20 : FVec Ideal S1024x1024 .bf16) (ix2 k j))
          (fun j e => (V c main_v22 : FVec Ideal S256x1024 .bf16) (ix2 e j))
          (fun f j => (V c main_v24 : FVec Ideal S1024x128 .bf16) (ix2 j f))
          (ctxQuot (fun b k => (V c main_v10 : FVec Ideal S1024x1024 .f32) (ix2 b k))
            (fun s b d => (V c main_arg2 : FVec Ideal S64x1024x256 .f32) (ix3 s b d))
            (fun e k => (V c main_v14 : FVec Ideal S1024x256 .bf16) (ix2 k e))
            (fun e d => (V c main_v16 : FVec Ideal S256x256 .bf16) (ix2 d e)))

variable (m : (ℓ : Loc nD τ sig) → Buf (Elt Ideal) ℓ) (ρ : Dev nD → PrngReg) (c : Dev nD)

/-- The cell's region, entered after the first host stretch, leaves the new state of the launch arguments. -/
theorem cell_result (hcell : CellClaim) :
    (dat0 (V1 m ρ) c).arrAt 8 cfg0.N = newState (m ((c : Thread nD τ).loc main_arg0) : FVec Ideal S1024x256 .f32) (m ((c : Thread nD τ).loc main_arg1) : FVec Ideal S1024x1024 .f32) (m ((c : Thread nD τ).loc main_arg3) : FVec Ideal S2048x256 .f32) (m ((c : Thread nD τ).loc main_arg4) : FVec Ideal S2048x1024 .f32) (m ((c : Thread nD τ).loc main_arg5) : FVec Ideal S2048 .f32) (m ((c : Thread nD τ).loc main_arg6) : FVec Ideal S1024x256 .f32) (m ((c : Thread nD τ).loc main_arg7) : FVec Ideal S1024x1024 .f32) (m ((c : Thread nD τ).loc main_arg8) : FVec Ideal S1024 .f32) := by
  rw [hcell (V1 m ρ) c]
  unfold newState
  simp only [V1_arg0 m ρ c, V1_arg1 m ρ c, V1_v1_at m ρ c, V1_v3_at m ρ c, V1_v4_at m ρ c, V1_v6_at m ρ c, V1_v8_at m ρ c, V1_v9_at m ρ c]

/-- The new state's buffer at the last boundary: an input window of the attention region, untouched by the second
    stretch, written by the cell's region. -/
theorem W4_v10 (hcell : CellClaim) :
    W4 m ρ c (Proc.devRef .tc main_v10) = newState (m ((c : Thread nD τ).loc main_arg0) : FVec Ideal S1024x256 .f32) (m ((c : Thread nD τ).loc main_arg1) : FVec Ideal S1024x1024 .f32) (m ((c : Thread nD τ).loc main_arg3) : FVec Ideal S2048x256 .f32) (m ((c : Thread nD τ).loc main_arg4) : FVec Ideal S2048x1024 .f32) (m ((c : Thread nD τ).loc main_arg5) : FVec Ideal S2048 .f32) (m ((c : Thread nD τ).loc main_arg6) : FVec Ideal S1024x256 .f32) (m ((c : Thread nD τ).loc main_arg7) : FVec Ideal S1024x1024 .f32) (m ((c : Thread nD τ).loc main_arg8) : FVec Ideal S1024 .f32) :=
  calc W4 m ρ c (Proc.devRef .tc main_v10)
    _ = V3 m ρ c main_v10 := (W4_arr m ρ c 0).trans (((dat1 (V3 m ρ) c).arrAt_in 0 rfl _).trans (A_eq1 (V3 m ρ) c 0))
    _ = (dat0 (V1 m ρ) c).arrAt 8 cfg0.N := V3_v10 m ρ c
    _ = _ := cell_result m ρ c hcell

/-- The factors' buffer at the last boundary: the attention region's output array. -/
theorem W4_v25 (hcell : CellClaim) (hattn : AttnClaim) :
    W4 m ρ c (Proc.devRef .tc main_v25) = factorsQuot (m ((c : Thread nD τ).loc main_arg0) : FVec Ideal S1024x256 .f32) (m ((c : Thread nD τ).loc main_arg1) : FVec Ideal S1024x1024 .f32) (m ((c : Thread nD τ).loc main_arg2) : FVec Ideal S64x1024x256 .f32) (m ((c : Thread nD τ).loc main_arg3) : FVec Ideal S2048x256 .f32) (m ((c : Thread nD τ).loc main_arg4) : FVec Ideal S2048x1024 .f32) (m ((c : Thread nD τ).loc main_arg5) : FVec Ideal S2048 .f32) (m ((c : Thread nD τ).loc main_arg6) : FVec Ideal S1024x256 .f32) (m ((c : Thread nD τ).loc main_arg7) : FVec Ideal S1024x1024 .f32) (m ((c : Thread nD τ).loc main_arg8) : FVec Ideal S1024 .f32) (m ((c : Thread nD τ).loc main_arg9) : FVec Ideal S256x1280 .f32) (m ((c : Thread nD τ).loc main_arg10) : FVec Ideal S1024x1280 .f32) (m ((c : Thread nD τ).loc main_arg11) : FVec Ideal S128x1024 .f32) := by
  rw [show W4 m ρ c (Proc.devRef .tc main_v25) = (dat1 (V3 m ρ) c).arrAt 7 cfg1.N from W4_arr m ρ c 7, hattn (V3 m ρ) c]
  unfold factorsQuot factorsWith ctxOfQuot newStateAt srcAt scoreWg scoreWs
  simp only [V3_arg2 m ρ c, V3_v14_at m ρ c, V3_v16_at m ρ c, V3_v20_at m ρ c, V3_v22_at m ρ c, V3_v24_at m ρ c, V3_v10 m ρ c, cell_result m ρ c hcell]

/-- The run with both results named as functions of the launch arguments, the arguments as launched. -/
theorem run_values (hcell : CellClaim) (hattn : AttnClaim) :
    θ_run defs (onTc (τ := τ) (main (F := Ideal))) ⟨m, fun _ => 0, ρ⟩ (fun r => ∀ c : Dev nD,
      r.2.mem ((c.tc : Thread nD τ).loc main_v10) = newState (m ((c : Thread nD τ).loc main_arg0) : FVec Ideal S1024x256 .f32) (m ((c : Thread nD τ).loc main_arg1) : FVec Ideal S1024x1024 .f32) (m ((c : Thread nD τ).loc main_arg3) : FVec Ideal S2048x256 .f32) (m ((c : Thread nD τ).loc main_arg4) : FVec Ideal S2048x1024 .f32) (m ((c : Thread nD τ).loc main_arg5) : FVec Ideal S2048 .f32) (m ((c : Thread nD τ).loc main_arg6) : FVec Ideal S1024x256 .f32) (m ((c : Thread nD τ).loc main_arg7) : FVec Ideal S1024x1024 .f32) (m ((c : Thread nD τ).loc main_arg8) : FVec Ideal S1024 .f32)
      ∧ r.2.mem ((c.tc : Thread nD τ).loc main_v25) = factorsQuot (m ((c : Thread nD τ).loc main_arg0) : FVec Ideal S1024x256 .f32) (m ((c : Thread nD τ).loc main_arg1) : FVec Ideal S1024x1024 .f32) (m ((c : Thread nD τ).loc main_arg2) : FVec Ideal S64x1024x256 .f32) (m ((c : Thread nD τ).loc main_arg3) : FVec Ideal S2048x256 .f32) (m ((c : Thread nD τ).loc main_arg4) : FVec Ideal S2048x1024 .f32) (m ((c : Thread nD τ).loc main_arg5) : FVec Ideal S2048 .f32) (m ((c : Thread nD τ).loc main_arg6) : FVec Ideal S1024x256 .f32) (m ((c : Thread nD τ).loc main_arg7) : FVec Ideal S1024x1024 .f32) (m ((c : Thread nD τ).loc main_arg8) : FVec Ideal S1024 .f32) (m ((c : Thread nD τ).loc main_arg9) : FVec Ideal S256x1280 .f32) (m ((c : Thread nD τ).loc main_arg10) : FVec Ideal S1024x1280 .f32) (m ((c : Thread nD τ).loc main_arg11) : FVec Ideal S128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_v10 m ρ c hcell), (h c).2.1.trans (W4_v25 m ρ c hcell hattn), (h c).2.2⟩)
    (Cert.KernelIdeal.ResultRun.run_results m ρ)

end Cert.KernelIdeal.KernelValue

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.LibSoftmaxQuotient.lean ====
/-
  A softmax-weighted sum as one quotient, on real entries.

  For real scores x_s, real values a_s and ANY real shift M, over a nonempty finite index set,
      Σ_s a_s · ( e^{x_s − M} / Σ_s' e^{x_s' − M} )  =  ( Σ_s a_s · e^{x_s} ) / ( Σ_s e^{x_s} ),
  both sides read on the extended reals with the total quotient `Ideal.div` and `Ideal.exp`: the left side is a softmax over
  s (with the usual shift by the maximum, or by anything real) summed against a, the right side is the form a kernel
  takes when it drops the shift and divides once. e^{x − M} = e^{x}·e^{−M}; the positive factor e^{−M} cancels between a
  term and the normalising sum; the common positive denominator moves out of the sum. Neither step holds on the extended
  reals at the infinities, so the statement is about real entries, read through the coercion.
  Needs LibRealSums (the coercion commutes with finite sums) beside it.
-/
import Idealize.ShloMosaic.PureOps.Ideal
import proofs.«120470_j13391708029287_2_alg».proof.Proof.LibRealSums

noncomputable section

open scoped BigOperators

namespace Cert.LibSoftmaxQuotient

open Idealize.ShloMosaic

/-- Σ_s a_s·(e^{x_s − M} / Σ_s' e^{x_s' − M}) = (Σ_s a_s·e^{x_s}) / (Σ_s e^{x_s}) for real a, x, M over a nonempty finite set. -/
theorem shift_eq_quot {ι : Type} [Fintype ι] [Nonempty ι] (a x : ι → ℝ) (M : ℝ) :
    ∑ s, (a s : EReal) * Ideal.div (Ideal.exp ((x s : EReal) - (M : EReal))) (∑ s', Ideal.exp ((x s' : EReal) - (M : EReal)))
      = Ideal.div (∑ s, (a s : EReal) * Ideal.exp (x s : EReal)) (∑ s, Ideal.exp (x s : EReal)) := by
  classical
  have hD : (0 : ℝ) < ∑ s, Real.exp (x s) := Finset.sum_pos (fun s _ => Real.exp_pos _) Finset.univ_nonempty
  have hD' : (0 : ℝ) < ∑ s, Real.exp (x s - M) := Finset.sum_pos (fun s _ => Real.exp_pos _) Finset.univ_nonempty
  have e1 : ∀ s, Ideal.exp ((x s : EReal) - (M : EReal)) = ((Real.exp (x s - M) : ℝ) : EReal) := fun s => by
    rw [← EReal.coe_sub]; rfl
  have e2 : ∀ s, Ideal.exp (x s : EReal) = ((Real.exp (x s) : ℝ) : EReal) := fun s => rfl
  simp only [e1, e2]
  rw [← Cert.LibRealSums.coe_finset_sum, ← Cert.LibRealSums.coe_finset_sum, Ideal.div_coe hD.ne']
  simp only [Ideal.div_coe hD'.ne', ← EReal.coe_mul]
  rw [← Cert.LibRealSums.coe_finset_sum, ← Cert.LibRealSums.coe_finset_sum, ← EReal.coe_mul, EReal.coe_eq_coe_iff]
  have hDD : ∑ s, Real.exp (x s - M) = (∑ s, Real.exp (x s)) * Real.exp (-M) := by
    rw [Finset.sum_mul]
    exact Finset.sum_congr rfl fun s _ => by rw [sub_eq_add_neg, Real.exp_add]
  have hM : Real.exp (-M) ≠ 0 := (Real.exp_pos _).ne'
  rw [Finset.sum_mul]
  refine Finset.sum_congr rfl fun s _ => ?_
  rw [hDD, sub_eq_add_neg, Real.exp_add]
  field_simp

end Cert.LibSoftmaxQuotient

end
-- ==== Proof.ContextLaw.lean ====
/-
  Two spellings of an attention context agree on the reals.

  For real weights-to-be x_s (the scores), real values a_s and any real shift M, over a nonempty finite set of steps,
      Σ_s a_s · ( e^{x_s − M} / Σ_s' e^{x_s' − M} )  =  ( Σ_s a_s · e^{x_s} ) / ( Σ_s e^{x_s} ):
  e^{x − M} = e^{x} · e^{−M}, the positive factor e^{−M} cancels between a term and the normalising sum, and a quotient by
  the common positive denominator moves out of the sum (the general statement, over any nonempty finite index set, is
  proved apart). On the extended reals neither step is available in general (distributivity and cancellation fail at
  the infinities), so the statement here is for source entries, scores and shift that are real numbers.
-/
import proofs.«120470_j13391708029287_2_alg».proof.Proof.Spec
import proofs.«120470_j13391708029287_2_alg».proof.Proof.LibSoftmaxQuotient

noncomputable section

open scoped BigOperators

namespace Cert.GruAttn

open Idealize.ShloMosaic

variable {B : ℕ} (g : Fin B → Fin 1024 → EReal) (src : Fin 64 → Fin B → Fin 256 → EReal)
  (Ag : Fin 256 → Fin 1024 → EReal) (As : Fin 256 → Fin 256 → EReal)

/-- The shifted, normalised context is the one-quotient context wherever the source entries, the scores and the shift
    are real numbers. -/
theorem ctxShift_eq_ctxQuot (M : Fin B → Fin 256 → EReal) (b : Fin B) (e : Fin 256)
    (hsrc : ∀ s, ∃ r : ℝ, src s b e = r) (hsc : ∀ s, ∃ r : ℝ, score g src Ag As s b e = r) (hM : ∃ r : ℝ, M b e = r) :
    ctxShift g src Ag As M b e = ctxQuot g src Ag As b e := by
  choose a ha using hsrc
  choose x hx using hsc
  obtain ⟨μ, hμ⟩ := hM
  unfold ctxShift ctxQuot
  simp only [ha, hx, hμ]
  exact Cert.LibSoftmaxQuotient.shift_eq_quot a x μ

end Cert.GruAttn

end
-- ==== Proof.Words.lean ====
/-
  The float words the two programs spell, as the extended reals they denote: 1, 0, −5, 5 are those real numbers and
  the negative-infinity and positive-infinity words are the bottom and top elements. One module states them all, so that no other module opens the
  binary reading of a word.
-/
import proofs.«120470_j13391708029287_2_alg».proof.Proof.Spec

noncomputable section

namespace Cert.GruAttn

open Idealize.ShloMosaic

theorem one32_eq : one32 = 1 := by
  unfold one32
  simp [Ideal.ofBits, Ideal.ieee, -EReal.coe_mul]; norm_num

theorem zero32_eq : zero32 = 0 := by
  unfold zero32
  simp [Ideal.ofBits, Ideal.ieee]

theorem pos5_eq : pos5 = ((5 : ℝ) : EReal) := by
  unfold pos5
  simp [Ideal.ofBits, Ideal.ieee, -EReal.coe_mul]; norm_num

theorem neg5_eq : neg5 = ((-5 : ℝ) : EReal) := by
  unfold neg5
  simp [Ideal.ofBits, Ideal.ieee, -EReal.coe_mul]; norm_num

theorem neginf_eq : Ideal.ofBits .f32 0xFF800000#32 = ⊥ := by
  simp [Ideal.ofBits, Ideal.ieee]

theorem posinf_eq : Ideal.ofBits .f32 0x7F800000#32 = ⊤ := by
  simp [Ideal.ofBits, Ideal.ieee]

end Cert.GruAttn

end
-- ==== Proof.Bridge.lean ====
/-
  The factors over the shifted, normalised context are the factors over the one-quotient context, as soon as the source
  steps and the score weights are real numbers.

  The new state is clamped into [−5, 5], so every entry of it is a real number whatever the cell computed. A score is
  max(Σ state·weight + Σ source·weight, 0): finite sums of products of real numbers, so a real number. With the scores,
  the source entries and the shift all real, the two spellings of the context agree entry by entry, and the factors
  depend on the context through its entries only.
-/
import proofs.«120470_j13391708029287_2_alg».proof.Proof.Results
import proofs.«120470_j13391708029287_2_alg».proof.Proof.ContextLaw
import proofs.«120470_j13391708029287_2_alg».proof.Proof.Words

noncomputable section

open scoped BigOperators

namespace Cert.GruAttn

open Idealize.ShloMosaic Idealize.ShloMosaic.ValueIdx

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The coercion of the reals is monotone, so it commutes with max and min. -/
theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

theorem max_real {x y : EReal} (hx : ∃ r : ℝ, x = r) (hy : ∃ r : ℝ, y = r) : ∃ r : ℝ, max x y = r := by
  obtain ⟨a, rfl⟩ := hx
  obtain ⟨b, rfl⟩ := hy
  exact ⟨max a b, coe_max' a b⟩

/-- Clamping any extended real into [−5, 5] gives a real number. -/
theorem clamp_real (y : EReal) : ∃ r : ℝ, min pos5 (max neg5 y) = r := by
  rw [pos5_eq, neg5_eq]
  induction y using EReal.rec with
  | bot => exact ⟨min 5 (-5), by rw [max_bot_right, coe_min']⟩
  | coe r => exact ⟨min 5 (max (-5) r), by rw [coe_max', coe_min']⟩
  | top => exact ⟨5, by rw [max_top_right, min_top_right]⟩

/-- Every entry of the new state is a real number. -/
theorem state_real {B : ℕ} (x : Fin B → Fin 256 → EReal) (h : Fin B → Fin 1024 → EReal)
    (Wx : Fin 2048 → Fin 256 → EReal) (Wh : Fin 2048 → Fin 1024 → EReal) (bg : Fin 2048 → EReal)
    (Wc : Fin 1024 → Fin 256 → EReal) (Wrc : Fin 1024 → Fin 1024 → EReal) (bc : Fin 1024 → EReal) (b : Fin B) (j : Fin 1024) :
    ∃ r : ℝ, state x h Wx Wh bg Wc Wrc bc b j = r := by
  unfold state
  exact clamp_real _

/-- A score of real states, real source entries and real weights is a real number. -/
theorem score_real {B : ℕ} (g : Fin B → Fin 1024 → EReal) (src : Fin 64 → Fin B → Fin 256 → EReal)
    (Ag : Fin 256 → Fin 1024 → EReal) (As : Fin 256 → Fin 256 → EReal)
    (hg : ∀ b k, ∃ r : ℝ, g b k = r) (hsrc : ∀ s b d, ∃ r : ℝ, src s b d = r)
    (hAg : ∀ e k, ∃ r : ℝ, Ag e k = r) (hAs : ∀ e d, ∃ r : ℝ, As e d = r) (s : Fin 64) (b : Fin B) (e : Fin 256) :
    ∃ r : ℝ, score g src Ag As s b e = r := by
  unfold score stateTerm srcTerm
  rw [zero32_eq]
  exact max_real (add_real (Cert.LibRealSums.exists_real_sum _ _ fun k => mul_real (hg b k) (hAg e k))
    (Cert.LibRealSums.exists_real_sum _ _ fun d => mul_real (hsrc s b d) (hAs e d))) ⟨0, EReal.coe_zero.symm⟩

variable (a0 : FVec Ideal ⟨2, ![1024, 256]⟩ .f32) (a1 : FVec Ideal ⟨2, ![1024, 1024]⟩ .f32)
  (a2 : FVec Ideal ⟨3, ![64, 1024, 256]⟩ .f32) (a3 : FVec Ideal ⟨2, ![2048, 256]⟩ .f32) (a4 : FVec Ideal ⟨2, ![2048, 1024]⟩ .f32)
  (a5 : FVec Ideal ⟨1, ![2048]⟩ .f32) (a6 : FVec Ideal ⟨2, ![1024, 256]⟩ .f32) (a7 : FVec Ideal ⟨2, ![1024, 1024]⟩ .f32)
  (a8 : FVec Ideal ⟨1, ![1024]⟩ .f32) (a9 : FVec Ideal ⟨2, ![256, 1280]⟩ .f32) (a10 : FVec Ideal ⟨2, ![1024, 1280]⟩ .f32)
  (a11 : FVec Ideal ⟨2, ![128, 1024]⟩ .f32)

/-- With real source steps and real score weights every score of the arguments is a real number. -/
theorem scores_real (hsrc : ∀ i, ∃ r : ℝ, a2 i = r) (hA : ∀ i, ∃ r : ℝ, a9 i = r) (s : Fin 64) (b : Fin 1024) (e : Fin 256) :
    ∃ r : ℝ, score (newStateAt a0 a1 a3 a4 a5 a6 a7 a8) (srcAt a2) (scoreWg a9) (scoreWs a9) s b e = r :=
  score_real _ _ _ _ (fun b k => state_real _ _ _ _ _ _ _ _ b k) (fun s b d => hsrc _) (fun e k => hA _) (fun e d => hA _) s b e

/-- The factors over the context shifted by `M` are the factors over the one-quotient context, when the source steps
    and score weights are real and `M` is real wherever the scores are. -/
theorem factorsWith_shift_eq (hsrc : ∀ i, ∃ r : ℝ, a2 i = r) (hA : ∀ i, ∃ r : ℝ, a9 i = r)
    (M : Fin 1024 → Fin 256 → EReal)
    (hM : ∀ b e, (∀ s, ∃ r : ℝ, score (newStateAt a0 a1 a3 a4 a5 a6 a7 a8) (srcAt a2) (scoreWg a9) (scoreWs a9) s b e = r)
      → ∃ r : ℝ, M b e = r) :
    factorsWith a0 a1 a3 a4 a5 a6 a7 a8 a10 a11
        (ctxShift (newStateAt a0 a1 a3 a4 a5 a6 a7 a8) (srcAt a2) (scoreWg a9) (scoreWs a9) M)
      = factorsQuot a0 a1 a2 a3 a4 a5 a6 a7 a8 a9 a10 a11 := by
  unfold factorsQuot ctxOfQuot
  refine congrArg _ (funext fun b => funext fun e => ?_)
  have hsc := fun s => scores_real a0 a1 a2 a3 a4 a5 a6 a7 a8 a9 hsrc hA s b e
  exact ctxShift_eq_ctxQuot _ _ _ _ M b e (fun s => hsrc _) hsc (hM b e hsc)

end Cert.GruAttn

end
-- ==== Proof.Finite.lean ====
/-
  The precondition, read back: the source steps and the attention score weights hold real numbers.

  The precondition is the conjunction, over the twelve argument arrays, of "every entry's magnitude is below +∞".
  An extended real whose magnitude max(x, −x) is below the top element is neither infinity, so it is a real number.
  Only two of the twelve conjuncts are used: the attention's two spellings of the context agree as soon as the source
  steps and the scores are real, and the scores are real because the new state is clamped into [−5, 5].
-/
import proofs.«120470_j13391708029287_2_alg».proof.Pre_finite_inputs
import proofs.«120470_j13391708029287_2_alg».proof.Proof.Words
import Idealize.ShloMosaic.Lib.ReduceAll
import Idealize.ShloMosaic.Lib.ValueIdx
import Idealize.ShloMosaic.PureOps.Ideal

noncomputable section

namespace Cert.GruAttn.Finite

open Idealize.ShloMosaic Cert.Pre_finite_inputs

/-- A bit made from a Boolean is 1 only if the Boolean is true. -/
theorem ofBool_one {b : Bool} (h : BitVec.ofBool b = 1#1) : b = true := by
  cases b
  · exact absurd h (by decide)
  · rfl

/-- An extended real whose magnitude compares below the +∞ word is a real number. -/
theorem real_of_bit (x : EReal) (h : Ideal.cmp .olt (max x (-x)) (Ideal.ofBits .f32 0x7F800000#32) = 1#1) : ∃ r : ℝ, x = r := by
  rw [Cert.GruAttn.posinf_eq] at h
  have hlt : max x (-x) < ⊤ := of_decide_eq_true (ofBool_one h)
  induction x using EReal.rec with
  | bot => exact absurd hlt (by simp)
  | coe r => exact ⟨r, rfl⟩
  | top => exact absurd hlt (by simp)

variable [Cert.Pre_finite_inputs.Facts]

instance : Subsingleton S_.Idx := ⟨fun a b => funext fun d => d.elim0⟩

/-- Under the precondition every entry of the source steps is a real number. -/
theorem src_real (a0 : FVec Ideal S1024x256 .f32) (a1 : FVec Ideal S1024x1024 .f32) (a2 : FVec Ideal S64x1024x256 .f32)
    (a3 : FVec Ideal S2048x256 .f32) (a4 : FVec Ideal S2048x1024 .f32) (a5 : FVec Ideal S2048 .f32) (a6 : FVec Ideal S1024x256 .f32)
    (a7 : FVec Ideal S1024x1024 .f32) (a8 : FVec Ideal S1024 .f32) (a9 : FVec Ideal S256x1280 .f32) (a10 : FVec Ideal S1024x1280 .f32)
    (a11 : FVec Ideal S128x1024 .f32)
    (h : fn (F := Ideal) a0 a1 a2 a3 a4 a5 a6 a7 a8 a9 a10 a11 = fun _ => 1#1) (i : S64x1024x256.Idx) : ∃ r : ℝ, a2 i = r := by
  have h0 := congrFun h ValueIdx.ix0
  dsimp only [fn, fn_part1, fn_part2, fn_part3] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have h9 := (IntOp.andi_eq_one.1 h8).1
  have h10 := (IntOp.andi_eq_one.1 h9).2
  exact real_of_bit (a2 i) (Host.reduce_andi_all _ _ _ _ _ h10 i)

/-- Under the precondition every entry of the attention score weights is a real number. -/
theorem scoreWeights_real (a0 : FVec Ideal S1024x256 .f32) (a1 : FVec Ideal S1024x1024 .f32) (a2 : FVec Ideal S64x1024x256 .f32)
    (a3 : FVec Ideal S2048x256 .f32) (a4 : FVec Ideal S2048x1024 .f32) (a5 : FVec Ideal S2048 .f32) (a6 : FVec Ideal S1024x256 .f32)
    (a7 : FVec Ideal S1024x1024 .f32) (a8 : FVec Ideal S1024 .f32) (a9 : FVec Ideal S256x1280 .f32) (a10 : FVec Ideal S1024x1280 .f32)
    (a11 : FVec Ideal S128x1024 .f32)
    (h : fn (F := Ideal) a0 a1 a2 a3 a4 a5 a6 a7 a8 a9 a10 a11 = fun _ => 1#1) (i : S256x1280.Idx) : ∃ r : ℝ, a9 i = r := by
  have h0 := congrFun h ValueIdx.ix0
  dsimp only [fn, fn_part1, fn_part2, fn_part3] at h0
  have h1 := (IntOp.andi_eq_one.1 h0).1
  have h2 := (IntOp.andi_eq_one.1 h1).1
  have h3 := (IntOp.andi_eq_one.1 h2).2
  exact real_of_bit (a9 i) (Host.reduce_andi_all _ _ _ _ _ h3 i)

end Cert.GruAttn.Finite

end
-- ==== Proof.RefState.lean ====
/-
  The reference's new state is the specification's gated recurrent cell.

  The reference computes the gate pre-activations as two matrix products plus a broadcast bias, cuts them into the reset
  and update halves, spells the logistic function as 1 / (1 + exp (−z)), forms the candidate from a third and a fourth
  matrix product, mixes candidate and old state by the update gate and clamps the result to [−5, 5]. Read at row `b`
  and column `j`, stage by stage, this is the specification's `state` of the argument arrays read at their coordinates.
-/
import proofs.«120470_j13391708029287_2_alg».proof.Proof.Spec
import proofs.«120470_j13391708029287_2_alg».proof.Proof.Words
import proofs.«120470_j13391708029287_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.TcCoe Idealize.ShloMosaic.ValueIdx Cert.GruAttn

/-- The logistic function as the reference spells it, with the word of 1 in both places, is the logistic function. -/
theorem logistic_spelt (z : EReal) :
    Ideal.div (Ideal.ofBits .f32 0x3F800000#32) (Ideal.ofBits .f32 0x3F800000#32 + Ideal.exp (-z)) = Ideal.logistic z := by
  rw [show Ideal.ofBits .f32 0x3F800000#32 = (1 : EReal) from one32_eq]
  rfl

variable (x0 : (⟨S1024x256, .f32⟩ : BufTy).Contents (Elt Ideal)) (x1 : (⟨S1024x1024, .f32⟩ : BufTy).Contents (Elt Ideal))
  (x2 : (⟨S64x1024x256, .f32⟩ : BufTy).Contents (Elt Ideal)) (x3 : (⟨S2048x256, .f32⟩ : BufTy).Contents (Elt Ideal))
  (x4 : (⟨S2048x1024, .f32⟩ : BufTy).Contents (Elt Ideal)) (x5 : (⟨S2048, .f32⟩ : BufTy).Contents (Elt Ideal))
  (x6 : (⟨S1024x256, .f32⟩ : BufTy).Contents (Elt Ideal)) (x7 : (⟨S1024x1024, .f32⟩ : BufTy).Contents (Elt Ideal))
  (x8 : (⟨S1024, .f32⟩ : BufTy).Contents (Elt Ideal)) (x9 : (⟨S256x1280, .f32⟩ : BufTy).Contents (Elt Ideal))
  (x10 : (⟨S1024x1280, .f32⟩ : BufTy).Contents (Elt Ideal)) (x11 : (⟨S128x1024, .f32⟩ : BufTy).Contents (Elt Ideal))

/-- The gate pre-activation: two contractions over the input and the old state, plus the bias of the gate row. -/
theorem gate_at (b : Fin 1024) (n : Fin 2048) :
    Read.val_main_v7 (F := Ideal) x0 x1 x3 x4 x5 (ix2 b n)
      = gate (fun b k => x0 (ix2 b k)) (fun b k => x1 (ix2 b k)) (fun n k => x3 (ix2 n k)) (fun n k => x4 (ix2 n k))
          (fun n => x5 (ix1 n)) b n := by
  have e1 : ∀ k : Fin 256, Read.lidx_main_v1 (ix2 b n) k = ix2 b k := fun k =>
    funext fun a => Fin.ext (by match a with | ⟨0, _⟩ => rfl | ⟨1, _⟩ => rfl)
  have e2 : ∀ k : Fin 256, Read.idx_main_v0 (Read.ridx_main_v1 (ix2 b n) k) = ix2 n k := fun k =>
    funext fun a => Fin.ext (by match a with | ⟨0, _⟩ => rfl | ⟨1, _⟩ => rfl)
  have e3 : ∀ k : Fin 1024, Read.lidx_main_v3 (ix2 b n) k = ix2 b k := fun k =>
    funext fun a => Fin.ext (by match a with | ⟨0, _⟩ => rfl | ⟨1, _⟩ => rfl)
  have e4 : ∀ k : Fin 1024, Read.idx_main_v2 (Read.ridx_main_v3 (ix2 b n) k) = ix2 n k := fun k =>
    funext fun a => Fin.ext (by match a with | ⟨0, _⟩ => rfl | ⟨1, _⟩ => rfl)
  have e5 : Read.idx_main_v5 (Read.idx_main_v6 (ix2 b n)) = ix1 n :=
    funext fun a => Fin.ext (by match a with | ⟨0, _⟩ => rfl)
  rw [Read.val_main_v7_apply, Read.val_main_v4_apply, Read.val_main_v1_apply, Read.val_main_v3_apply,
    Read.val_main_v6_apply, Read.val_main_v5_apply, e5]
  simp only [Read.val_main_v0_apply, Read.val_main_v2_apply, e1, e2, e3, e4, Ideal.addf_def, gate]

/-- The reset gate: the logistic function of the first 1024 gate rows. -/
theorem reset_at (b : Fin 1024) (k : Fin 1024) :
    Read.val_main_v14 (F := Ideal) x0 x1 x3 x4 x5 (ix2 b k)
      = reset (fun b k => x0 (ix2 b k)) (fun b k => x1 (ix2 b k)) (fun n k => x3 (ix2 n k)) (fun n k => x4 (ix2 n k))
          (fun n => x5 (ix1 n)) b k := by
  have e : Read.idx_main_v8 (ix2 b k) = ix2 b (lo2048 k) :=
    funext fun a => Fin.ext (by match a with | ⟨0, _⟩ => rfl | ⟨1, _⟩ => rfl)
  rw [Read.val_main_v14_apply, Read.val_main_v13_apply, Read.val_main_cst_0_apply, Read.val_main_v12_apply,
    Read.val_main_v11_apply, Read.val_main_cst_apply, Read.val_main_v10_apply, Read.val_main_v9_apply,
    Read.val_main_v8_apply, e, gate_at]
  exact logistic_spelt _

/-- The update gate: the logistic function of the last 1024 gate rows plus the word of 1. -/
theorem update_at (b : Fin 1024) (j : Fin 1024) :
    Read.val_main_v23 (F := Ideal) x0 x1 x3 x4 x5 (ix2 b j)
      = update (fun b k => x0 (ix2 b k)) (fun b k => x1 (ix2 b k)) (fun n k => x3 (ix2 n k)) (fun n k => x4 (ix2 n k))
          (fun n => x5 (ix1 n)) b j := by
  have e : Read.idx_main_v15 (ix2 b j) = ix2 b (hi2048 j) :=
    funext fun a => Fin.ext (by match a with | ⟨0, _⟩ => rfl | ⟨1, _⟩ => rfl)
  rw [Read.val_main_v23_apply, Read.val_main_v22_apply, Read.val_main_cst_3_apply, Read.val_main_v21_apply,
    Read.val_main_v20_apply, Read.val_main_cst_2_apply, Read.val_main_v19_apply, Read.val_main_v18_apply,
    Read.val_main_v17_apply, Read.val_main_v16_apply, Read.val_main_cst_1_apply, Read.val_main_v15_apply, e, gate_at]
  exact logistic_spelt _

/-- The candidate state: the hyperbolic tangent of a contraction over the input, a contraction over the reset old
    state, and the bias. -/
theorem cand_at (b : Fin 1024) (j : Fin 1024) :
    Read.val_main_v33 (F := Ideal) x0 x1 x3 x4 x5 x6 x7 x8 (ix2 b j)
      = cand (fun b k => x0 (ix2 b k)) (fun b k => x1 (ix2 b k)) (fun n k => x3 (ix2 n k)) (fun n k => x4 (ix2 n k))
          (fun n => x5 (ix1 n)) (fun j k => x6 (ix2 j k)) (fun j k => x7 (ix2 j k)) (fun j => x8 (ix1 j)) b j := by
  have e1 : ∀ k : Fin 256, Read.lidx_main_v25 (ix2 b j) k = ix2 b k := fun k =>
    funext fun a => Fin.ext (by match a with | ⟨0, _⟩ => rfl | ⟨1, _⟩ => rfl)
  have e2 : ∀ k : Fin 256, Read.idx_main_v24 (Read.ridx_main_v25 (ix2 b j) k) = ix2 j k := fun k =>
    funext fun a => Fin.ext (by match a with | ⟨0, _⟩ => rfl | ⟨1, _⟩ => rfl)
  have e3 : ∀ k : Fin 1024, Read.lidx_main_v28 (ix2 b j) k = ix2 b k := fun k =>
    funext fun a => Fin.ext (by match a with | ⟨0, _⟩ => rfl | ⟨1, _⟩ => rfl)
  have e4 : ∀ k : Fin 1024, Read.idx_main_v27 (Read.ridx_main_v28 (ix2 b j) k) = ix2 j k := fun k =>
    funext fun a => Fin.ext (by match a with | ⟨0, _⟩ => rfl | ⟨1, _⟩ => rfl)
  have e5 : Read.idx_main_v30 (Read.idx_main_v31 (ix2 b j)) = ix1 j :=
    funext fun a => Fin.ext (by match a with | ⟨0, _⟩ => rfl)
  rw [Read.val_main_v33_apply, Read.val_main_v32_apply, Read.val_main_v29_apply, Read.val_main_v25_apply,
    Read.val_main_v28_apply, Read.val_main_v31_apply, Read.val_main_v30_apply, e5]
  simp only [Read.val_main_v24_apply, Read.val_main_v27_apply, Read.val_main_v26_apply, e1, e2, e3, e4, reset_at,
    Ideal.addf_def, Ideal.mulf_def, Ideal.hostUnary_tanh_def, cand]

/-- The new state: the update gate's mix of old state and candidate, clamped between the words of −5 and 5. -/
theorem state_at (b : Fin 1024) (j : Fin 1024) :
    Read.val_main_v39 (F := Ideal) x0 x1 x3 x4 x5 x6 x7 x8 (ix2 b j)
      = state (fun b k => x0 (ix2 b k)) (fun b k => x1 (ix2 b k)) (fun n k => x3 (ix2 n k)) (fun n k => x4 (ix2 n k))
          (fun n => x5 (ix1 n)) (fun j k => x6 (ix2 j k)) (fun j k => x7 (ix2 j k)) (fun j => x8 (ix1 j)) b j := by
  rw [Read.val_main_v39_apply, Read.val_main_call0_v4_apply]
  unfold Read.val_main_call0_v3 Read.val_main_call0_v2
  rw [maximumf_apply, Read.val_main_call0_v1_apply]
  unfold Read.val_main_call0_v0
  rw [id_eq, id_eq, Read.val_main_cst_6_apply, Read.val_main_cst_5_apply, Read.val_main_v38_apply, Read.val_main_v34_apply,
    Read.val_main_v37_apply, Read.val_main_v36_apply, Read.val_main_v35_apply, Read.val_main_cst_4_apply, update_at, cand_at]
  rfl

/-- The reference's new state, as an array, is the specification's. -/
theorem state_eq :
    Read.val_main_v39 (F := Ideal) x0 x1 x3 x4 x5 x6 x7 x8
      = stateArr (fun b k => x0 (ix2 b k)) (fun b k => x1 (ix2 b k)) (fun n k => x3 (ix2 n k)) (fun n k => x4 (ix2 n k))
          (fun n => x5 (ix1 n)) (fun j k => x6 (ix2 j k)) (fun j k => x7 (ix2 j k)) (fun j => x8 (ix1 j)) := by
  funext i
  obtain ⟨b, j, rfl⟩ : ∃ (b : Fin 1024) (j : Fin 1024), i = ix2 b j := ⟨i 0, i 1, eq_ix2 i⟩
  exact state_at x0 x1 x3 x4 x5 x6 x7 x8 b j

end Cert.ReferenceIdeal.RefValue

end
-- ==== Proof.RefShift.lean ====
/-
  The shift the reference subtracts from the scores before it exponentiates them: for a batch row and a channel, the
  running maximum of the 64 scores, started from the negative-infinity word and then once more compared with that word.
  When the 64 scores are real numbers the shift is one of them, hence a real number.
-/
import proofs.«120470_j13391708029287_2_alg».proof.Proof.Spec
import proofs.«120470_j13391708029287_2_alg».proof.Proof.Words

noncomputable section

open scoped BigOperators

namespace Cert.ReferenceIdeal.RefValue

open Idealize.ShloMosaic Cert.GruAttn

/-- The reference's shift of row `b`, channel `e`: the maximum of the negative-infinity word and the fold of the maximum
    over the 64 source steps' scores from that word. -/
def refShift {B : ℕ} (g : Fin B → Fin 1024 → EReal) (src : Fin 64 → Fin B → Fin 256 → EReal)
    (Ag : Fin 256 → Fin 1024 → EReal) (As : Fin 256 → Fin 256 → EReal) : Fin B → Fin 256 → EReal :=
  fun b e => max (Ideal.ofBits .f32 0xFF800000#32)
    ((Finset.univ : Finset (Fin 64)).fold max (Ideal.ofBits .f32 0xFF800000#32) (fun s => score g src Ag As s b e))

/-- A fold of the maximum over a finite family is its starting value or a member of the family. -/
theorem fold_max_eq_init_or_mem {ι : Type*} [DecidableEq ι] (s : Finset ι) (f : ι → EReal) (c : EReal) :
    s.fold max c f = c ∨ ∃ i ∈ s, s.fold max c f = f i := by
  induction s using Finset.induction_on with
  | empty => exact Or.inl Finset.fold_empty
  | insert a s ha ih =>
    rw [Finset.fold_insert ha]
    rcases max_choice (f a) (s.fold max c f) with h | h
    · exact Or.inr ⟨a, Finset.mem_insert_self a s, h⟩
    · rw [h]
      rcases ih with h0 | ⟨i, hi, h1⟩
      · exact Or.inl h0
      · exact Or.inr ⟨i, Finset.mem_insert_of_mem hi, h1⟩

/-- Started from the bottom element, the maximum over a nonempty finite family of real numbers is a real number. -/
theorem refShift_real {B : ℕ} (g : Fin B → Fin 1024 → EReal) (src : Fin 64 → Fin B → Fin 256 → EReal)
    (Ag : Fin 256 → Fin 1024 → EReal) (As : Fin 256 → Fin 256 → EReal) (b : Fin B) (e : Fin 256)
    (h : ∀ s, ∃ r : ℝ, score g src Ag As s b e = r) : ∃ r : ℝ, refShift g src Ag As b e = r := by
  unfold refShift
  rw [neginf_eq, max_eq_right bot_le]
  rcases fold_max_eq_init_or_mem (Finset.univ : Finset (Fin 64)) (fun s => score g src Ag As s b e) ⊥ with h0 | ⟨i, _, hi⟩
  · exfalso
    obtain ⟨r, hr⟩ := h 0
    have hle : score g src Ag As 0 b e ≤ (Finset.univ : Finset (Fin 64)).fold max ⊥ (fun s => score g src Ag As s b e) :=
      (Finset.le_fold_max _).2 (Or.inr ⟨0, Finset.mem_univ _, le_rfl⟩)
    rw [h0, hr] at hle
    exact absurd (le_bot_iff.1 hle) (EReal.coe_ne_bot r)
  · rw [hi]
    exact h i

end Cert.ReferenceIdeal.RefValue

end
-- ==== Proof.Algebraic.lean ====
/-
  The two idealized programs, run from memories that agree on the arguments, end with equal results.

  The kernel's run ends with the new state and with the factors over the one-quotient context, as functions of its
  launch arguments. The reference's run ends with the new state and with the factors over the context its softmax
  spells: the scores shifted by their maximum over the steps, exponentiated, normalised, then summed against the source
  steps. Under the precondition the source steps and the score weights are real numbers; the new state is clamped, so
  the scores are real, so their maximum is real, and the two contexts agree. The memories agree on the arguments, so the
  reference's functions of its arguments are the kernel's functions of its own.
  The three value statements the argument rests on enter as hypotheses: what each of the kernel's two regions leaves in
  its output array, and the reference's factors read operation by operation.
-/
import proofs.«120470_j13391708029287_2_alg».proof.Defs
import proofs.«120470_j13391708029287_2_alg».proof.Proof.Gen.Kernel
import proofs.«120470_j13391708029287_2_alg».proof.Proof.Gen.KernelIdeal
import proofs.«120470_j13391708029287_2_alg».proof.Proof.Gen.ReferenceIdeal
import proofs.«120470_j13391708029287_2_alg».proof.Proof.Gen.ReferenceIdeal.Run
import proofs.«120470_j13391708029287_2_alg».proof.Proof.Gen.ReferenceIdeal.Read
import proofs.«120470_j13391708029287_2_alg».proof.Proof.Gen.Pre_finite_inputs
import proofs.«120470_j13391708029287_2_alg».proof.Proof.KernelValue
import proofs.«120470_j13391708029287_2_alg».proof.Proof.Bridge
import proofs.«120470_j13391708029287_2_alg».proof.Proof.Finite
import proofs.«120470_j13391708029287_2_alg».proof.Proof.RefState
import proofs.«120470_j13391708029287_2_alg».proof.Proof.RefShift

set_option maxRecDepth 16384

noncomputable section

namespace Cert.Proof.Parts

open Idealize.ShloMosaic Idealize.ShloMosaic.TcCoe Idealize.SL.Sem Idealize.ShloMosaic.ValueIdx Cert.GruAttn
open Cert.KernelIdeal.KernelValue (CellClaim AttnClaim)

section
open Cert.ReferenceIdeal Cert.ReferenceIdeal.Gen Cert.ReferenceIdeal.RefValue

/-- The reference's factors, read operation by operation: the factors over the shifted, normalised context of its new
    state, its source steps and its weights' cuts, the shift its running maximum. -/
def RefFactorsClaim : Prop :=
  ∀ (x0 : (⟨S1024x256, .f32⟩ : BufTy).Contents (Elt Ideal)) (x1 : (⟨S1024x1024, .f32⟩ : BufTy).Contents (Elt Ideal))
      (x2 : (⟨S64x1024x256, .f32⟩ : BufTy).Contents (Elt Ideal)) (x3 : (⟨S2048x256, .f32⟩ : BufTy).Contents (Elt Ideal))
      (x4 : (⟨S2048x1024, .f32⟩ : BufTy).Contents (Elt Ideal)) (x5 : (⟨S2048, .f32⟩ : BufTy).Contents (Elt Ideal))
      (x6 : (⟨S1024x256, .f32⟩ : BufTy).Contents (Elt Ideal)) (x7 : (⟨S1024x1024, .f32⟩ : BufTy).Contents (Elt Ideal))
      (x8 : (⟨S1024, .f32⟩ : BufTy).Contents (Elt Ideal)) (x9 : (⟨S256x1280, .f32⟩ : BufTy).Contents (Elt Ideal))
      (x10 : (⟨S1024x1280, .f32⟩ : BufTy).Contents (Elt Ideal)) (x11 : (⟨S128x1024, .f32⟩ : BufTy).Contents (Elt Ideal)),
    Read.val_main_v73 (F := Ideal) x0 x1 x2 x3 x4 x5 x6 x7 x8 x9 x10 x11
      = factorsArr (fun b k => Read.val_main_v39 (F := Ideal) x0 x1 x3 x4 x5 x6 x7 x8 (ix2 b k))
          (fun j k => x10 (ix2 j (lo1280 k))) (fun j e => x10 (ix2 j (hi1280 e))) (fun f j => x11 (ix2 f j))
          (ctxShift (fun b k => Read.val_main_v39 (F := Ideal) x0 x1 x3 x4 x5 x6 x7 x8 (ix2 b k))
            (fun s b d => x2 (ix3 s b d)) (fun e k => x9 (ix2 e (lo1280 k))) (fun e d => x9 (ix2 e (hi1280 d)))
            (refShift (fun b k => Read.val_main_v39 (F := Ideal) x0 x1 x3 x4 x5 x6 x7 x8 (ix2 b k))
              (fun s b d => x2 (ix3 s b d)) (fun e k => x9 (ix2 e (lo1280 k))) (fun e d => x9 (ix2 e (hi1280 d)))))

/-- Under "source steps and score weights are real", the reference's factors are the factors over the one-quotient
    context. -/
theorem ref_factors (hfac : RefFactorsClaim) (x0 : (⟨S1024x256, .f32⟩ : BufTy).Contents (Elt Ideal)) (x1 : (⟨S1024x1024, .f32⟩ : BufTy).Contents (Elt Ideal))
      (x2 : (⟨S64x1024x256, .f32⟩ : BufTy).Contents (Elt Ideal)) (x3 : (⟨S2048x256, .f32⟩ : BufTy).Contents (Elt Ideal))
      (x4 : (⟨S2048x1024, .f32⟩ : BufTy).Contents (Elt Ideal)) (x5 : (⟨S2048, .f32⟩ : BufTy).Contents (Elt Ideal))
      (x6 : (⟨S1024x256, .f32⟩ : BufTy).Contents (Elt Ideal)) (x7 : (⟨S1024x1024, .f32⟩ : BufTy).Contents (Elt Ideal))
      (x8 : (⟨S1024, .f32⟩ : BufTy).Contents (Elt Ideal)) (x9 : (⟨S256x1280, .f32⟩ : BufTy).Contents (Elt Ideal))
      (x10 : (⟨S1024x1280, .f32⟩ : BufTy).Contents (Elt Ideal)) (x11 : (⟨S128x1024, .f32⟩ : BufTy).Contents (Elt Ideal))
    (hsrc : ∀ i, ∃ r : ℝ, x2 i = r) (hA : ∀ i, ∃ r : ℝ, x9 i = r) :
    Read.val_main_v73 (F := Ideal) x0 x1 x2 x3 x4 x5 x6 x7 x8 x9 x10 x11 = factorsQuot x0 x1 x2 x3 x4 x5 x6 x7 x8 x9 x10 x11 := by
  rw [hfac, state_eq]
  exact factorsWith_shift_eq x0 x1 x2 x3 x4 x5 x6 x7 x8 x9 x10 x11 hsrc hA _ (fun b e h => refShift_real _ _ _ _ b e h)

/-- The reference's new state is `newState` of its arguments. -/
theorem ref_state (x0 : (⟨S1024x256, .f32⟩ : BufTy).Contents (Elt Ideal)) (x1 : (⟨S1024x1024, .f32⟩ : BufTy).Contents (Elt Ideal))
      (x3 : (⟨S2048x256, .f32⟩ : BufTy).Contents (Elt Ideal)) (x4 : (⟨S2048x1024, .f32⟩ : BufTy).Contents (Elt Ideal))
      (x5 : (⟨S2048, .f32⟩ : BufTy).Contents (Elt Ideal)) (x6 : (⟨S1024x256, .f32⟩ : BufTy).Contents (Elt Ideal))
      (x7 : (⟨S1024x1024, .f32⟩ : BufTy).Contents (Elt Ideal)) (x8 : (⟨S1024, .f32⟩ : BufTy).Contents (Elt Ideal)) :
    Read.val_main_v39 (F := Ideal) x0 x1 x3 x4 x5 x6 x7 x8 = newState x0 x1 x3 x4 x5 x6 x7 x8 :=
  state_eq x0 x1 x3 x4 x5 x6 x7 x8

end

/-- The algebraic claim, from the three value statements. -/
theorem algebraic (hcell : CellClaim) (hattn : AttnClaim) (hfac : RefFactorsClaim) : Cert.algebraic_KernelIdeal_ReferenceIdeal := by
  intro m ρ m' ρ' hpre hagree
  refine ⟨fun c => newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => factorsQuot (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KernelValue.run_values m ρ hcell hattn, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11⟩ := hagree c
  refine ⟨(h c).1.trans ?_, (h c).2.1.trans ?_, (h c).2.2⟩
  · rw [Cert.ReferenceIdeal.Read.val_main_v39_eq, ref_state, e0, e1, e3, e4, e5, e6, e7, e8]
  · rw [Cert.ReferenceIdeal.Read.val_main_v73_eq, e0, e1, e2, e3, e4, e5, e6, e7, e8, e9, e10, e11]
    exact ref_factors hfac _ _ _ _ _ _ _ _ _ _ _ _
      (fun i => Cert.GruAttn.Finite.src_real _ _ _ _ _ _ _ _ _ _ _ _ (hpre c) i)
      (fun i => Cert.GruAttn.Finite.scoreWeights_real _ _ _ _ _ _ _ _ _ _ _ _ (hpre c) i)

end Cert.Proof.Parts

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.CellBlock.lean ====
/-
  The gated recurrent cell on one block of 256 batch rows, entry by entry.

  What the body stores for a block, read at entry (p, q), is Spec's `state` of the block's own rows: the gate
  pre-activation is the two products plus the bias row (`preact_apply`), its columns 0 … 1023 under the logistic are the
  reset gate (`reset_apply`), its columns 1024 … 2047 plus 1 under the logistic the update gate (`update_apply`), the
  candidate is the hyperbolic tangent of the two candidate products plus their bias row (`cand_apply`), and the stored
  value is u·h + (1 − u)·c clamped to [−5, 5] (`block_apply`). On the extended reals the narrowing to bf16 is the identity,
  a cast of a shape to itself is the identity, each product into the zero accumulator is the sum over the contracted
  coordinate, and every other operation acts entry by entry. The weights are read as the program stores them,
  contracted coordinate first; Spec's functions take the gate row first, hence the swapped coordinates.
-/
import proofs.«120470_j13391708029287_2_alg».proof.Proof.Spec
import proofs.«120470_j13391708029287_2_alg».proof.Proof.Gen.KernelIdeal.Frame
import proofs.«120470_j13391708029287_2_alg».proof.Proof.LibPlainMatmul
import Idealize.ShloMosaic.Lib.Pipeline.Value
import Idealize.ShloMosaic.Lib.ValueLayout

noncomputable section

open scoped BigOperators

namespace Cert.KernelIdeal.CellValue

open Cert.KernelIdeal Cert.KernelIdeal.Gen Idealize.ShloMosaic Idealize.ShloMosaic.ValueIdx Cert.GruAttn

/-- The zero offsets of every whole-block access. -/
theorem zero_offsets : (![0, 0] : Fin 2 → Nat) = fun _ => 0 := funext fun a => by fin_cases a <;> rfl

/-- The four products of the cell, each read at an entry as the sum over the contracted coordinate. -/
theorem matmul_x_gate (a : FVec Ideal S256x256 .bf16) (b : FVec Ideal S256x2048 .bf16) (p : Fin 256) (n : Fin 2048) :
    matmul dot_S256x256_S256x2048_S256x2048_1_0_0_1_n_n none a b (constant S256x2048 .f32 0x00000000#32) (ix2 p n)
      = ∑ k : Fin 256, a (ix2 p k) * b (ix2 k n) :=
  matmul_plain_zero_apply _ rfl none a b p n

theorem matmul_h_gate (a : FVec Ideal S256x1024 .bf16) (b : FVec Ideal S1024x2048 .bf16) (p : Fin 256) (n : Fin 2048) :
    matmul dot_S256x1024_S1024x2048_S256x2048_1_0_0_1_n_n none a b (constant S256x2048 .f32 0x00000000#32) (ix2 p n)
      = ∑ k : Fin 1024, a (ix2 p k) * b (ix2 k n) :=
  matmul_plain_zero_apply _ rfl none a b p n

theorem matmul_x_cand (a : FVec Ideal S256x256 .bf16) (b : FVec Ideal S256x1024 .bf16) (p : Fin 256) (j : Fin 1024) :
    matmul dot_S256x256_S256x1024_S256x1024_1_0_0_1_n_n none a b (constant S256x1024 .f32 0x00000000#32) (ix2 p j)
      = ∑ k : Fin 256, a (ix2 p k) * b (ix2 k j) :=
  matmul_plain_zero_apply _ rfl none a b p j

theorem matmul_rh_cand (a : FVec Ideal S256x1024 .bf16) (b : FVec Ideal S1024x1024 .bf16) (p : Fin 256) (j : Fin 1024) :
    matmul dot_S256x1024_S1024x1024_S256x1024_1_0_0_1_n_n none a b (constant S256x1024 .f32 0x00000000#32) (ix2 p j)
      = ∑ k : Fin 1024, a (ix2 p k) * b (ix2 k j) :=
  matmul_plain_zero_apply _ rfl none a b p j

/-- The gate pre-activation at (p, n): the input's and the state's products with the gate weights, plus the bias row. -/
theorem preact_apply (v0 : Vec Ideal S256x256 .f32) (v1 : Vec Ideal S256x1024 .f32) (v4 : Vec Ideal S256x2048 .bf16)
    (v7 : Vec Ideal S1024x2048 .bf16) (v11 : Vec Ideal S1x2048 .f32) (p : Fin 256) (n : Fin 2048) :
    k0_pay3 v0 v1 v4 v7 v11 (ix2 p n)
      = gate (B := 256) (fun b k => v0 (ix2 b k)) (fun b k => v1 (ix2 b k)) (fun n k => v4 (ix2 k n))
          (fun n k => v7 (ix2 k n)) (fun n => v11 (ix2 (0 : Fin 1) n)) p n := by
  unfold k0_pay3 k0_pay2 gate
  rw [shapeCast_self, shapeCast_self, shapeCast_self, addf_apply, addf_apply,
    matmul_x_gate, matmul_h_gate, broadcastTo_1b_ab_apply]
  rfl

/-- The update gate at (p, q): the logistic of pre-activation column 1024 + q plus 1. -/
theorem update_apply (v0 : Vec Ideal S256x256 .f32) (v1 : Vec Ideal S256x1024 .f32) (v4 : Vec Ideal S256x2048 .bf16)
    (v7 : Vec Ideal S1024x2048 .bf16) (v11 : Vec Ideal S1x2048 .f32) (p : Fin 256) (q : Fin 1024) :
    k0_pay4 v0 v1 v4 v7 v11 (ix2 p q)
      = update (B := 256) (fun b k => v0 (ix2 b k)) (fun b k => v1 (ix2 b k)) (fun n k => v4 (ix2 k n))
          (fun n k => v7 (ix2 k n)) (fun n => v11 (ix2 (0 : Fin 1) n)) p q := by
  unfold k0_pay4 update
  show Ideal.logistic (extractStridedSlice S256x1024 ![0, 1024] (k0_pay3 v0 v1 v4 v7 v11) slices_S256x2048_o0_1024_S256x1024 (ix2 p q) + one32) = _
  rw [slice2_axis1_apply 1024 _ _ p q (hi2048 q) rfl, preact_apply]

/-- The reset gate at (p, k): the logistic of pre-activation column k. -/
theorem reset_apply (v0 : Vec Ideal S256x256 .f32) (v1 : Vec Ideal S256x1024 .f32) (v4 : Vec Ideal S256x2048 .bf16)
    (v7 : Vec Ideal S1024x2048 .bf16) (v11 : Vec Ideal S1x2048 .f32) (p : Fin 256) (k : Fin 1024) :
    logistic (extractStridedSlice S256x1024 ![0, 0] (k0_pay3 v0 v1 v4 v7 v11) slices_S256x2048_o0_0_S256x1024) (ix2 p k)
      = reset (B := 256) (fun b k => v0 (ix2 b k)) (fun b k => v1 (ix2 b k)) (fun n k => v4 (ix2 k n))
          (fun n k => v7 (ix2 k n)) (fun n => v11 (ix2 (0 : Fin 1) n)) p k := by
  unfold reset
  show Ideal.logistic (extractStridedSlice S256x1024 ![0, 0] (k0_pay3 v0 v1 v4 v7 v11) slices_S256x2048_o0_0_S256x1024 (ix2 p k)) = _
  rw [slice2_axis1_apply 0 _ _ p k (lo2048 k) (Nat.zero_add _).symm, preact_apply]

/-- The candidate at (p, q): tanh of the input's product, the reset state's product and the bias row. -/
theorem cand_apply (v0 : Vec Ideal S256x256 .f32) (v1 : Vec Ideal S256x1024 .f32) (v4 : Vec Ideal S256x2048 .bf16)
    (v7 : Vec Ideal S1024x2048 .bf16) (v11 : Vec Ideal S1x2048 .f32) (v23 : Vec Ideal S256x1024 .bf16)
    (v26 : Vec Ideal S1024x1024 .bf16) (v30 : Vec Ideal S1x1024 .f32) (p : Fin 256) (q : Fin 1024) :
    k0_pay5 v0 v1 v4 v7 v11 v23 v26 v30 (ix2 p q)
      = cand (B := 256) (fun b k => v0 (ix2 b k)) (fun b k => v1 (ix2 b k)) (fun n k => v4 (ix2 k n))
          (fun n k => v7 (ix2 k n)) (fun n => v11 (ix2 (0 : Fin 1) n)) (fun j k => v23 (ix2 k j))
          (fun j k => v26 (ix2 k j)) (fun j => v30 (ix2 (0 : Fin 1) j)) p q := by
  unfold k0_pay5 k0_pay2 cand
  rw [shapeCast_self, shapeCast_self, shapeCast_self]
  refine congrArg Ideal.tanh (?_ : addf (addf _ _) _ (ix2 p q) = _)
  rw [addf_apply, addf_apply, matmul_x_cand, matmul_rh_cand, broadcastTo_1b_ab_apply]
  refine congrArg₂ (· + ·) (congrArg₂ (· + ·) rfl (Finset.sum_congr rfl fun k _ => ?_)) rfl
  show logistic (extractStridedSlice S256x1024 ![0, 0] (k0_pay3 v0 v1 v4 v7 v11) slices_S256x2048_o0_0_S256x1024) (ix2 p k)
      * v1 (ix2 p k) * v26 (ix2 k q) = _
  rw [reset_apply]

/-- What the body leaves in the output block, at (p, q): the new state of the block's row p, column q. -/
theorem block_apply (x0 : Vec Ideal S256x256 .f32) (x1 : Vec Ideal S256x1024 .f32) (x2 : Vec Ideal S256x2048 .bf16)
    (x3 : Vec Ideal S1024x2048 .bf16) (x4 : Vec Ideal S1x2048 .f32) (x5 : Vec Ideal S256x1024 .bf16)
    (x6 : Vec Ideal S1024x1024 .bf16) (x7 : Vec Ideal S1x1024 .f32) (p : Fin 256) (q : Fin 1024) :
    out0_8 x0 x1 x2 x3 x4 x5 x6 x7 (ix2 p q)
      = state (B := 256) (fun b k => x0 (ix2 b k)) (fun b k => x1 (ix2 b k)) (fun n k => x2 (ix2 k n))
          (fun n k => x3 (ix2 k n)) (fun n => x4 (ix2 (0 : Fin 1) n)) (fun j k => x5 (ix2 k j))
          (fun j k => x6 (ix2 k j)) (fun j => x7 (ix2 (0 : Fin 1) j)) p q := by
  unfold out0_8
  rw [View.canon_unit_zero zero_offsets]
  simp only [View.ld_unit_zero (S := S256x256) zero_offsets, View.ld_unit_zero (S := S256x1024) zero_offsets,
    View.ld_unit_zero (S := S256x2048) zero_offsets, View.ld_unit_zero (S := S1024x2048) zero_offsets,
    View.ld_unit_zero (S := S1x2048) zero_offsets, View.ld_unit_zero (S := S1024x1024) zero_offsets,
    View.ld_unit_zero (S := S1x1024) zero_offsets]
  unfold k0_pay1 k0_pay6 k0_pay7 state
  show min pos5 (max neg5 (k0_pay4 x0 x1 x2 x3 x4 (ix2 p q) * x1 (ix2 p q)
      + (one32 - k0_pay4 x0 x1 x2 x3 x4 (ix2 p q)) * k0_pay5 x0 x1 x2 x3 x4 x5 x6 x7 (ix2 p q))) = _
  rw [update_apply, cand_apply]

end Cert.KernelIdeal.CellValue

end
-- ==== Proof.CellArray.lean ====
/-
  The gated recurrent cell over the whole batch: from the blocks of 256 rows to the state array.

  The region's grid has four points; point t reads rows 256·t … 256·t + 255 of the input and of the old state, every
  weight and bias array whole, and writes back rows 256·t … 256·t + 255 of the new state. The block a point writes
  back is the new state of the block's own rows (`block_apply`), a row's new state depends on its own row of the input
  and of the old state only (Spec's `state_row_congr`), and row p of block t is row 256·t + p of the batch: so the block
  is block t of the new state of the whole batch (`flushed_eq`). The four blocks cover the array, row r lying in the
  block of point r / 256 (`covered`), hence the array after the region is that state everywhere (`cell_arr`).
-/
import proofs.«120470_j13391708029287_2_alg».proof.Proof.CellBlock

noncomputable section

open scoped BigOperators

namespace Cert.KernelIdeal.CellValue

open Cert.KernelIdeal Cert.KernelIdeal.Gen Idealize.ShloMosaic Idealize.ShloMosaic.TcCoe Idealize.SL.Sem Idealize.ShloMosaic.ValueIdx Cert.GruAttn
open Idealize.ShloMosaic.Pipeline (Dat)

variable (V : (c : Dev nD) → (b : Ref sig .tc) → Buf (Elt Ideal) ((c : Thread nD τ).loc b))

/-- The printed index maps, decided once over the four grid points: the input block, the state block and the output
    block of point t sit at block row t; every weight and bias window is the whole array at every point. -/
theorem block_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## Each input block as entries of its array

A block's entry at a coordinate inside the block is the array's entry at block index × block size + that coordinate. -/

/-- Row p of the input block of point t is row 256·t + p of the input. -/
theorem blk0_apply (c : Dev nD) (t : Fin cfg0.N) (p : Fin 256) (k : Fin 256) (r : Fin 1024) (hr : r.val = 256 * t.val + p.val) :
    (iblk0 V c 0 t : Vec Ideal S256x256 .f32) (ix2 p k) = (V c main_arg0 : FVec Ideal S1024x256 .f32) (ix2 r k) := by
  obtain ⟨e0, e1, -⟩ := block_index_facts t
  show (V c main_arg0 : FVec Ideal S1024x256 .f32) (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 256 + 1 * k.val = k.val; omega

/-- Row p of the state block of point t is row 256·t + p of the state. -/
theorem blk1_apply (c : Dev nD) (t : Fin cfg0.N) (p : Fin 256) (k : Fin 1024) (r : Fin 1024) (hr : r.val = 256 * t.val + p.val) :
    (iblk0 V c 1 t : Vec Ideal S256x1024 .f32) (ix2 p k) = (V c main_arg1 : FVec Ideal S1024x1024 .f32) (ix2 r k) := by
  obtain ⟨-, -, e0, e1, -⟩ := block_index_facts t
  show (V c main_arg1 : FVec Ideal S1024x1024 .f32) (((cfg0.win 1).blk t).view.emb (ix2 p k)) = _
  refine congrArg _ (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-! The six weight and bias windows: the block is the array. -/

theorem blk2_eq (c : Dev nD) (t : Fin cfg0.N) :
    (iblk0 V c 2 t : Vec Ideal S256x2048 .bf16) = (V c main_v1 : FVec Ideal S256x2048 .bf16) := by
  obtain ⟨-, -, -, -, e0, e1, -⟩ := block_index_facts t
  funext y
  show (V c main_v1 : FVec Ideal S256x2048 .bf16) (((cfg0.win 2).blk t).view.emb y) = (V c main_v1 : FVec Ideal S256x2048 .bf16) y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 2048 + 1 * (y 1).val = (y 1).val; omega

theorem blk3_eq (c : Dev nD) (t : Fin cfg0.N) :
    (iblk0 V c 3 t : Vec Ideal S1024x2048 .bf16) = (V c main_v3 : FVec Ideal S1024x2048 .bf16) := by
  obtain ⟨-, -, -, -, -, -, e0, e1, -⟩ := block_index_facts t
  funext y
  show (V c main_v3 : FVec Ideal S1024x2048 .bf16) (((cfg0.win 3).blk t).view.emb y) = (V c main_v3 : FVec Ideal S1024x2048 .bf16) y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 2048 + 1 * (y 1).val = (y 1).val; omega

theorem blk4_eq (c : Dev nD) (t : Fin cfg0.N) :
    (iblk0 V c 4 t : Vec Ideal S1x2048 .f32) = (V c main_v4 : FVec Ideal S1x2048 .f32) := by
  obtain ⟨-, -, -, -, -, -, -, -, e0, e1, -⟩ := block_index_facts t
  funext y
  show (V c main_v4 : FVec Ideal S1x2048 .f32) (((cfg0.win 4).blk t).view.emb y) = (V c main_v4 : FVec Ideal S1x2048 .f32) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem blk5_eq (c : Dev nD) (t : Fin cfg0.N) :
    (iblk0 V c 5 t : Vec Ideal S256x1024 .bf16) = (V c main_v6 : FVec Ideal S256x1024 .bf16) := by
  obtain ⟨-, -, -, -, -, -, -, -, -, -, e0, e1, -⟩ := block_index_facts t
  funext y
  show (V c main_v6 : FVec Ideal S256x1024 .bf16) (((cfg0.win 5).blk t).view.emb y) = (V c main_v6 : FVec Ideal S256x1024 .bf16) y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 1024 + 1 * (y 1).val = (y 1).val; omega

theorem blk6_eq (c : Dev nD) (t : Fin cfg0.N) :
    (iblk0 V c 6 t : Vec Ideal S1024x1024 .bf16) = (V c main_v8 : FVec Ideal S1024x1024 .bf16) := by
  obtain ⟨-, -, -, -, -, -, -, -, -, -, -, -, e0, e1, -⟩ := block_index_facts t
  funext y
  show (V c main_v8 : FVec Ideal S1024x1024 .bf16) (((cfg0.win 6).blk t).view.emb y) = (V c main_v8 : FVec Ideal S1024x1024 .bf16) y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega

theorem blk7_eq (c : Dev nD) (t : Fin cfg0.N) :
    (iblk0 V c 7 t : Vec Ideal S1x1024 .f32) = (V c main_v9 : FVec Ideal S1x1024 .f32) := by
  obtain ⟨-, -, -, -, -, -, -, -, -, -, -, -, -, -, e0, e1, -⟩ := block_index_facts t
  funext y
  show (V c main_v9 : FVec Ideal S1x1024 .f32) (((cfg0.win 7).blk t).view.emb y) = (V c main_v9 : FVec Ideal S1x1024 .f32) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- The new state of the whole batch, from the arrays as the region finds them. -/
abbrev cellOf (c : Dev nD) : FVec Ideal ⟨2, ![1024, 1024]⟩ .f32 :=
  stateArr (fun b k => (V c main_arg0 : FVec Ideal S1024x256 .f32) (ix2 b k))
    (fun b k => (V c main_arg1 : FVec Ideal S1024x1024 .f32) (ix2 b k))
    (fun n k => (V c main_v1 : FVec Ideal S256x2048 .bf16) (ix2 k n))
    (fun n k => (V c main_v3 : FVec Ideal S1024x2048 .bf16) (ix2 k n))
    (fun n => (V c main_v4 : FVec Ideal S1x2048 .f32) (ix2 (0 : Fin 1) n))
    (fun j k => (V c main_v6 : FVec Ideal S256x1024 .bf16) (ix2 k j))
    (fun j k => (V c main_v8 : FVec Ideal S1024x1024 .bf16) (ix2 k j))
    (fun j => (V c main_v9 : FVec Ideal S1x1024 .f32) (ix2 (0 : Fin 1) j))

/-- WHAT POINT t WRITES BACK is block t of the new state of the whole batch: the body's block is the state of the block's
    own rows, a row's state depends on its own row of the input and of the old state only, and row p of block t is row
    256·t + p of the batch. -/
theorem flushed_eq (c : Dev nD) (t : Fin cfg0.N) :
    (dat0 (F := Ideal) V c).flushed 8 t = ((cfg0.win 8).blk t).view.read (Elt Ideal) (cellOf V c) := by
  show (cfg0.win 8).cut (grid0.coords t) ((dat0 (F := Ideal) V c).after 8 t) = _
  rw [after0_8]
  funext j
  obtain ⟨p, q, rfl⟩ : ∃ (p : Fin 256) (q : Fin 1024), j = ix2 p q := ⟨j 0, j 1, eq_ix2 j⟩
  show out0_8 (iblk0 V c 0 t) (iblk0 V c 1 t) (iblk0 V c 2 t) (iblk0 V c 3 t) (iblk0 V c 4 t) (iblk0 V c 5 t)
      (iblk0 V c 6 t) (iblk0 V c 7 t) (ix2 p q) = cellOf V c (((cfg0.win 8).blk t).view.emb (ix2 p q))
  refine (block_apply (iblk0 V c 0 t) (iblk0 V c 1 t) (iblk0 V c 2 t) (iblk0 V c 3 t) (iblk0 V c 4 t) (iblk0 V c 5 t)
    (iblk0 V c 6 t) (iblk0 V c 7 t) p q).trans ?_
  have ht : t.val < 4 := t.isLt
  have hr : 256 * t.val + p.val < 1024 := by omega
  have hemb : ((cfg0.win 8).blk t).view.emb (ix2 p q) = (ix2 (⟨256 * t.val + p.val, hr⟩ : Fin 1024) q : S1024x1024.Idx) := by
    obtain ⟨-, -, -, -, -, -, -, -, -, -, -, -, -, -, -, -, e0, e1⟩ := block_index_facts t
    funext a
    apply Fin.ext
    match a with
    | ⟨0, _⟩ => show win0_8.index t (0 : Fin 2) * 256 + 1 * p.val = 256 * t.val + p.val; omega
    | ⟨1, _⟩ => show win0_8.index t (1 : Fin 2) * 1024 + 1 * q.val = q.val; omega
  rw [hemb, blk2_eq, blk3_eq, blk4_eq, blk5_eq, blk6_eq, blk7_eq]
  exact state_row_congr _ _ _ _ _ _ _ _ _ _ p (⟨256 * t.val + p.val, hr⟩ : Fin 1024)
    (fun k => blk0_apply V c t p k _ rfl) (fun k => blk1_apply V c t p k _ rfl) q

/-- An index of the state array is in point t's block iff each coordinate is in the block's range on its axis. -/
theorem mem_blk (t : Fin cfg0.N) (i : S1024x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v10).slice (win0_8.rect t)).set ↔ _
  rw [View.set_slice_whole, Rect.mem_set_unit]
  exact Iff.rfl

/-- Every index of the state array is in some point's block: row r is in the block of point r / 256. -/
theorem covered (i : S1024x1024.Idx) :
    ∃ t : Fin cfg0.N, (cfg0.win 8).flush t = true ∧ i ∈ ((cfg0.win 8).blk t).view.set := by
  have hi0 : (i 0).val < 1024 := (i 0).isLt
  have hi1 : (i 1).val < 1024 := (i 1).isLt
  have hN : (i 0).val / 256 < cfg0.N := by show (i 0).val / 256 < 4; omega
  refine ⟨⟨(i 0).val / 256, hN⟩, flush0_8 _, ?_⟩
  obtain ⟨-, -, -, -, -, -, -, -, -, -, -, -, -, -, -, -, e0, e1⟩ := block_index_facts ⟨(i 0).val / 256, hN⟩
  rw [mem_blk]
  intro a
  match a with
  | ⟨0, _⟩ =>
    show win0_8.index ⟨(i 0).val / 256, hN⟩ (0 : Fin 2) * 256 ≤ (i 0).val
      ∧ (i 0).val < win0_8.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hN⟩ (1 : Fin 2) * 1024 ≤ (i 1).val
      ∧ (i 1).val < win0_8.index ⟨(i 0).val / 256, hN⟩ (1 : Fin 2) * 1024 + 1024
    rw [e1]; omega

/-- THE STATE ARRAY after the region: the new state of the whole batch, from the arrays as the region finds them. -/
theorem cell_arr (c : Dev nD) :
    (dat0 (F := Ideal) V c).arrAt 8 cfg0.N
      = stateArr (fun b k => (V c main_arg0 : FVec Ideal S1024x256 .f32) (ix2 b k))
          (fun b k => (V c main_arg1 : FVec Ideal S1024x1024 .f32) (ix2 b k))
          (fun n k => (V c main_v1 : FVec Ideal S256x2048 .bf16) (ix2 k n))
          (fun n k => (V c main_v3 : FVec Ideal S1024x2048 .bf16) (ix2 k n))
          (fun n => (V c main_v4 : FVec Ideal S1x2048 .f32) (ix2 (0 : Fin 1) n))
          (fun j k => (V c main_v6 : FVec Ideal S256x1024 .bf16) (ix2 k j))
          (fun j k => (V c main_v8 : FVec Ideal S1024x1024 .bf16) (ix2 k j))
          (fun j => (V c main_v9 : FVec Ideal S1x1024 .f32) (ix2 (0 : Fin 1) j)) :=
  (dat0 (F := Ideal) V c).arrAt_eq_of_cover 8 (cellOf V c) (fun t _ => flushed_eq V c t) covered

end Cert.KernelIdeal.CellValue

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.LibLeadingAxes.lean ====
/-
  Layout operations that merge or split the two leading axes of an array, read at an index, for any extents.

  A kernel that treats a block `[a, b, c]` as a matrix of `a * b` rows casts it to `[a * b, c]`; row-major order
  keeps every element in place, so row `p * b + q` of the matrix is the pair `(p, q)` of the block. The same holds in
  the other direction (`[a * b, c] → [a, b, c]`) and for a vector split in two (`[a * b] → [a, b]`). Two more
  operations spell `x[..., None]` spread along a new last axis: a cast `[a, b] → [a, b, 1]` and a broadcast
  `[a, b, 1] → [a, b, c]`; read at `(p, q, e)` both give the operand at `(p, q)`. The row count is a parameter `n`
  with the row's position `r = p * b + q` as a hypothesis, so the lemmas apply to literal extents without
  arithmetic in the types.
-/
import Idealize.ShloMosaic.Lib.ValueLayout

noncomputable section

namespace Cert.LibLeadingAxes

open Idealize.ShloMosaic Idealize.ShloMosaic.ValueIdx

variable {α : Type}

/-- A block `[a, b, c]` cast to `[n, c]` reads, at row `r = p * b + q` and column `e`, the block at `(p, q, e)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix `[n, c]` cast to `[a, b, c]` reads, at `(p, q, e)`, the matrix at row `r = p * b + q` and column `e`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A vector `[n]` cast to `[a, b]` reads, at `(p, q)`, the vector at position `r = p * b + q`. -/
theorem shapeCast_n_ab_apply {a b n : ℕ} (x : (⟨1, ![n]⟩ : Shape).Idx → α)
    (h : (⟨1, ![n]⟩ : Shape).ShapeCasts ⟨2, ![a, b]⟩) (p : Fin a) (q : Fin b) (r : Fin n)
    (hr : r.val = p.val * b + q.val) : shapeCast ⟨2, ![a, b]⟩ x h (ix2 p q) = x (ix1 r) :=
  shapeCast_apply x h _ _ (by
    rw [Shape.rowMajor_val_two, Shape.rowMajor_val_one]
    show r.val = p.val * b + q.val
    exact hr)

/-- A matrix `[a, b]` cast to `[a, b, 1]` reads, at `(p, q, u)`, the matrix at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An array `[a, b, 1]` broadcast to `[a, b, c]` reads, at `(p, q, e)`, its one entry of the pair `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else e.val
    rw [if_pos rfl]

end Cert.LibLeadingAxes

end
-- ==== Proof.AttnBlock.lean ====
/-
  One block of the additive attention, entry by entry.

  A block is 128 batch rows. From the block of the new state g [128,1024], the block of the source steps src [64,128,256]
  and the five weight matrices, the body forms
      the state's part of the scores      Σ_k g(p,k)·Ag(k,e)                          [128,256],
      the source steps' part               Σ_d src(s,p,d)·As(d,e)                      [64,128,256] (as an [8192,256] product),
      the weights                          exp(max(state part + source part, 0)),
      the context                          Σ_s src·weight / Σ_s weight                 [128,256],
      the attention output                 tanh(Σ_k g(p,k)·Og(k,j) + Σ_e ctx(p,e)·Os(e,j))   [128,1024],
      the factors                          Σ_j out(p,j)·Rf(j,q)                        [128,128],
  and stores the factors over the whole block. Here each stage is read at an entry: a product into the zero matrix is the
  sum over the contracted axis, the [8192,256] product seen as [64,128,256] has row s·128 + p at (s,p), a sum over the
  leading axis is the sum over the steps, the state's part is the same for every step, and roundings to a narrower
  format are the identity on the extended reals. Together: entry (p,q) of what the body stores is the specification's
  `factors` of the block with the context as one quotient.
-/
import proofs.«120470_j13391708029287_2_alg».proof.Proof.Spec
import proofs.«120470_j13391708029287_2_alg».proof.Proof.Gen.KernelIdeal.Frame
import proofs.«120470_j13391708029287_2_alg».proof.Proof.LibPlainMatmul
import proofs.«120470_j13391708029287_2_alg».proof.Proof.LibIndexReads
import proofs.«120470_j13391708029287_2_alg».proof.Proof.LibLeadingAxes
import Idealize.ShloMosaic.Lib.Pipeline.Value
import Idealize.ShloMosaic.Lib.ValueLayout

noncomputable section

open scoped BigOperators

namespace Cert.KernelIdeal.AttnValue

open Cert.KernelIdeal Cert.KernelIdeal.Gen Idealize.ShloMosaic Idealize.ShloMosaic.TcCoe Idealize.SL.Sem Idealize.ShloMosaic.ValueIdx Cert.GruAttn

/-- The hyperbolic tangent and the exponential act entry by entry. -/
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The state's part of the scores, a [128,1024] × [1024,256] product into the zero matrix: entry (p,e) is Σ_k a(p,k)·b(k,e). -/
theorem stateProd_apply (a : FVec Ideal S128x1024 .bf16) (b : FVec Ideal S1024x256 .bf16) (p : Fin 128) (e : Fin 256) :
    matmul dot_S128x1024_S1024x256_S128x256_1_0_0_1_n_n none a b (constant (F := Ideal) S128x256 .f32 0x00000000#32) (ix2 p e)
      = ∑ k : Fin 1024, a (ix2 p k) * b (ix2 k e) :=
  matmul_plain_zero_apply _ rfl none a b p e

/-- The state's part of the attention output, a [128,1024] × [1024,1024] product: entry (p,j) is Σ_k a(p,k)·b(k,j). -/
theorem outState_apply (a : FVec Ideal S128x1024 .bf16) (b : FVec Ideal S1024x1024 .bf16) (p : Fin 128) (j : Fin 1024) :
    matmul dot_S128x1024_S1024x1024_S128x1024_1_0_0_1_n_n none a b (constant (F := Ideal) S128x1024 .f32 0x00000000#32) (ix2 p j)
      = ∑ k : Fin 1024, a (ix2 p k) * b (ix2 k j) :=
  matmul_plain_zero_apply _ rfl none a b p j

/-- The context's part of the attention output, a [128,256] × [256,1024] product: entry (p,j) is Σ_e a(p,e)·b(e,j). -/
theorem outCtx_apply (a : FVec Ideal S128x256 .bf16) (b : FVec Ideal S256x1024 .bf16) (p : Fin 128) (j : Fin 1024) :
    matmul dot_S128x256_S256x1024_S128x1024_1_0_0_1_n_n none a b (constant (F := Ideal) S128x1024 .f32 0x00000000#32) (ix2 p j)
      = ∑ e : Fin 256, a (ix2 p e) * b (ix2 e j) :=
  matmul_plain_zero_apply _ rfl none a b p j

/-- The read-out, a [128,1024] × [1024,128] product: entry (p,q) is Σ_j a(p,j)·b(j,q). -/
theorem readout_apply (a : FVec Ideal S128x1024 .bf16) (b : FVec Ideal S1024x128 .bf16) (p : Fin 128) (q : Fin 128) :
    matmul dot_S128x1024_S1024x128_S128x128_1_0_0_1_n_n none a b (constant (F := Ideal) S128x128 .f32 0x00000000#32) (ix2 p q)
      = ∑ j : Fin 1024, a (ix2 p j) * b (ix2 j q) :=
  matmul_plain_zero_apply _ rfl none a b p q

/-- The source steps' part of the scores: the block [64,128,256] seen as a matrix of 8192 rows, multiplied by a [256,256]
    matrix, and seen as [64,128,256] again. Row s·128 + p of the matrix is the pair (s,p), so entry (s,p,e) is
    Σ_d a(s,p,d)·b(d,e). -/
theorem srcProd_apply (a : FVec Ideal S64x128x256 .bf16) (b : FVec Ideal S256x256 .bf16) (s : Fin 64) (p : Fin 128) (e : Fin 256) :
    shapeCast S64x128x256 (matmul dot_S8192x256_S256x256_S8192x256_1_0_0_1_n_n none (shapeCast S8192x256 a shapeCasts_S64x128x256_S8192x256) b
        (constant (F := Ideal) S8192x256 .f32 0x00000000#32)) shapeCasts_S8192x256_S64x128x256 (ix3 s p e)
      = ∑ d : Fin 256, a (ix3 s p d) * b (ix2 d e) := by
  have hr : (⟨s.val * 128 + p.val, by have := s.isLt; have := p.isLt; omega⟩ : Fin 8192).val = s.val * 128 + p.val := rfl
  refine (Cert.LibLeadingAxes.shapeCast_nc_abc_apply _ shapeCasts_S8192x256_S64x128x256 s p e _ hr).trans ?_
  refine (matmul_plain_zero_apply _ rfl none _ b _ e).trans ?_
  exact Finset.sum_congr rfl fun d _ => congrArg (· * b (ix2 d e))
    (Cert.LibLeadingAxes.shapeCast_abc_nc_apply a shapeCasts_S64x128x256_S8192x256 s p d _ hr)

/-- A [128,256] matrix given a leading unit axis and repeated along it 64 times reads, at (s,p,e), the matrix at (p,e). -/
theorem spread_apply (v : FVec Ideal S128x256 .f32) (s : Fin 64) (p : Fin 128) (e : Fin 256) :
    broadcastTo S64x128x256 (shapeCast S1x128x256 v shapeCasts_S128x256_S1x128x256) broadcasts_S1x128x256_S64x128x256 (ix3 s p e)
      = v (ix2 p e) :=
  (Cert.LibIndexReads.broadcastTo_1bc_abc_apply _ broadcasts_S1x128x256_S64x128x256 s p e).trans
    (shapeCast_ab_1ab_apply v shapeCasts_S128x256_S1x128x256 (0 : Fin 1) p e)

/-- A sum over the leading axis of a [64,128,256] array from the zero word: entry (p,e) is Σ_s w(s,p,e). The two side
    conditions are taken in the form the program's own term carries them. -/
theorem sumSteps_apply (w : FVec Ideal S64x128x256 .f32) (hφ : FTy.f32 = FTy.f32 ∨ FTy.f32 = FTy.bf16)
    (hacc : (0x00000000#32 : BitVec 32) = 0x00000000#32) (p : Fin 128) (e : Fin 256) :
    multiReduction (F := Ideal) .add [0] S128x256 w 0x00000000#32 reduces_S64x128x256_S128x256 hφ hacc (ix2 p e)
      = ∑ s : Fin 64, w (ix3 s p e) :=
  Cert.LibIndexReads.multiReduction_add_axis0_apply w 0x00000000#32 reduces_S64x128x256_S128x256 hφ hacc p e

section Block
variable (x0 : Vec Ideal S128x1024 .f32) (x1 : Vec Ideal S64x128x256 .f32) (x2 : Vec Ideal S1024x256 .bf16)
  (x3 : Vec Ideal S256x256 .bf16) (x4 : Vec Ideal S1024x1024 .bf16) (x5 : Vec Ideal S256x1024 .bf16) (x6 : Vec Ideal S1024x128 .bf16)

/-- Entry (p,q) of the body's stored value is the factors of the block, the context as one quotient: the read-out sum over
    j, then under tanh the two products, then under the quotient the two sums over the steps, then the weight
    exp(max(state part + source part, 0)) stage by stage. -/
theorem pay_factors (p q : Fin 128) :
    k1_pay1 (F := Ideal) x0 x1 x2 x3 x4 x5 x6 (ix2 p q)
      = factors (B := 128) (fun b k => x0 (ix2 b k)) (fun j k => x4 (ix2 k j)) (fun j e => x5 (ix2 e j)) (fun f j => x6 (ix2 j f))
          (ctxQuot (fun b k => x0 (ix2 b k)) (fun s b d => x1 (ix3 s b d)) (fun e k => x2 (ix2 k e)) (fun e d => x3 (ix2 d e))) p q := by
  unfold k1_pay1
  simp only [shapeCast_self]
  simp only [readout_apply, truncf_apply, tanh_apply, addf_apply, outState_apply, outCtx_apply, divf_apply]
  simp only [factors, attnOut, ctxQuot, score, stateTerm, srcTerm]
  refine Finset.sum_congr rfl fun j _ => ?_
  refine congrArg (· * x6 (ix2 j q)) ?_
  refine congrArg Ideal.tanh ?_
  refine congrArg (_ + ·) ?_
  refine Finset.sum_congr rfl fun e _ => ?_
  refine congrArg (· * x5 (ix2 e j)) ?_
  rw [sumSteps_apply, sumSteps_apply]
  simp only [mulf_apply, exp_apply, maximumf_apply, addf_apply, spread_apply, srcProd_apply, stateProd_apply, broadcast_apply,
    truncf_apply, Ideal.ofBits_def]

/-- The zero offsets of a whole-block access, rank 2 and rank 3. -/
theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the output's block: its one store covers the block and every load reads a whole block, so
    entry (p,q) is the factors of the block. -/
theorem out_factors (p q : Fin 128) :
    out1_7 (F := Ideal) x0 x1 x2 x3 x4 x5 x6 (ix2 p q)
      = factors (B := 128) (fun b k => x0 (ix2 b k)) (fun j k => x4 (ix2 k j)) (fun j e => x5 (ix2 e j)) (fun f j => x6 (ix2 j f))
          (ctxQuot (fun b k => x0 (ix2 b k)) (fun s b d => x1 (ix3 s b d)) (fun e k => x2 (ix2 k e)) (fun e d => x3 (ix2 d e))) p q := by
  unfold out1_7
  rw [View.canon_unit_zero zero2]
  simp only [View.ld_unit_zero (S := S128x1024) zero2, View.ld_unit_zero (S := S64x128x256) zero3, View.ld_unit_zero (S := S1024x256) zero2,
    View.ld_unit_zero (S := S256x256) zero2, View.ld_unit_zero (S := S1024x1024) zero2, View.ld_unit_zero (S := S256x1024) zero2,
    View.ld_unit_zero (S := S1024x128) zero2]
  exact pay_factors x0 x1 x2 x3 x4 x5 x6 p q

end Block

end Cert.KernelIdeal.AttnValue

end
-- ==== Proof.AttnArray.lean ====
/-
  From the blocks of the additive attention to the whole array of factors.

  The grid has 8 points; point t works on batch rows 128·t … 128·t + 127. At point t the state's window holds rows
  128·t … of the state [1024,1024], the source steps' window holds rows 128·t … of the MIDDLE axis of src [64,1024,256],
  each of the five weight windows holds its whole matrix, and the output's window is rows 128·t … of the factors
  [1024,128]. An element of a window's block sits in its array, on each axis, at block index × block size + 1 × its own
  coordinate; the block indices are decided once over the 8 points.

  The factors of a batch row depend on the state and the source steps through that row only, so entry (p,q) of what point t
  writes back — the factors of the block, by the block's own theorem — is entry (128·t + p, q) of the factors of the whole
  batch. The 8 blocks cover the output array (row r lies in the block of point r / 128), so after the last point the array
  holds the factors of the whole batch, the context as one quotient.
-/
import proofs.«120470_j13391708029287_2_alg».proof.Proof.AttnBlock
import Idealize.ShloMosaic.Lib.Pipeline.Value

noncomputable section

open scoped BigOperators

namespace Cert.KernelIdeal.AttnValue

open Cert.KernelIdeal Cert.KernelIdeal.Gen Idealize.ShloMosaic Idealize.ShloMosaic.TcCoe Idealize.SL.Sem Idealize.ShloMosaic.ValueIdx Cert.GruAttn
open Idealize.ShloMosaic.Pipeline (Dat)

variable (V : (c : Dev nD) → (b : Ref sig .tc) → Buf (Elt Ideal) ((c : Thread nD τ).loc b))

/-- The block index of every window at every grid point: the state's, the source steps' (on its middle axis) and the
    output's move with the point; the weights' stay at 0. -/
theorem blockIndex : ∀ t : Fin cfg1.N,
    win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the state's block at point t is row 128·t + p of the state. -/
theorem state_blk (c : Dev nD) (t : Fin cfg1.N) (p : Fin 128) (k : Fin 1024) (b' : Fin 1024) (hb : b'.val = 128 * t.val + p.val) :
    (iblk1 V c 0 t : Vec Ideal S128x1024 .f32) (ix2 p k) = (V c main_v10 : FVec Ideal S1024x1024 .f32) (ix2 b' k) := by
  obtain ⟨e0, e1, -⟩ := blockIndex t
  unfold iblk1
  rw [View.read_apply]
  show V c main_v10 _ = V c main_v10 _
  congr 1
  funext a
  apply Fin.ext
  match a with
  | ⟨0, _⟩ => show win1_0.index t 0 * 128 + 1 * p.val = b'.val; rw [e0, hb]; omega
  | ⟨1, _⟩ => show win1_0.index t 1 * 1024 + 1 * k.val = k.val; rw [e1]; omega

/-- Row p (on the middle axis) of the source steps' block at point t is row 128·t + p of src; the step and the channel are the entry's own. -/
theorem src_blk (c : Dev nD) (t : Fin cfg1.N) (s : Fin 64) (p : Fin 128) (d : Fin 256) (b' : Fin 1024) (hb : b'.val = 128 * t.val + p.val) :
    (iblk1 V c 1 t : Vec Ideal S64x128x256 .f32) (ix3 s p d) = (V c main_arg2 : FVec Ideal S64x1024x256 .f32) (ix3 s b' d) := by
  obtain ⟨-, -, e0, e1, e2, -⟩ := blockIndex t
  unfold iblk1
  rw [View.read_apply]
  show V c main_arg2 _ = V c main_arg2 _
  congr 1
  funext a
  apply Fin.ext
  match a with
  | ⟨0, _⟩ => show win1_1.index t 0 * 64 + 1 * s.val = s.val; rw [e0]; omega
  | ⟨1, _⟩ => show win1_1.index t 1 * 128 + 1 * p.val = b'.val; rw [e1, hb]; omega
  | ⟨2, _⟩ => show win1_1.index t 2 * 256 + 1 * d.val = d.val; rw [e2]; omega

/-- Each weight window's block is its whole matrix: the state's score weights, -/
theorem w2_blk (c : Dev nD) (t : Fin cfg1.N) : (iblk1 V c 2 t : Vec Ideal S1024x256 .bf16) = (V c main_v14 : FVec Ideal S1024x256 .bf16) := by
  obtain ⟨-, -, -, -, -, e0, e1, -⟩ := blockIndex t
  funext y
  unfold iblk1
  rw [View.read_apply]
  show V c main_v14 _ = V c main_v14 _
  congr 1
  funext a
  apply Fin.ext
  match a with
  | ⟨0, _⟩ => show win1_2.index t 0 * 1024 + 1 * (y 0).val = (y 0).val; rw [e0]; omega
  | ⟨1, _⟩ => show win1_2.index t 1 * 256 + 1 * (y 1).val = (y 1).val; rw [e1]; omega

/-- the source steps' score weights, -/
theorem w3_blk (c : Dev nD) (t : Fin cfg1.N) : (iblk1 V c 3 t : Vec Ideal S256x256 .bf16) = (V c main_v16 : FVec Ideal S256x256 .bf16) := by
  obtain ⟨-, -, -, -, -, -, -, e0, e1, -⟩ := blockIndex t
  funext y
  unfold iblk1
  rw [View.read_apply]
  show V c main_v16 _ = V c main_v16 _
  congr 1
  funext a
  apply Fin.ext
  match a with
  | ⟨0, _⟩ => show win1_3.index t 0 * 256 + 1 * (y 0).val = (y 0).val; rw [e0]; omega
  | ⟨1, _⟩ => show win1_3.index t 1 * 256 + 1 * (y 1).val = (y 1).val; rw [e1]; omega

/-- the state's output weights, -/
theorem w4_blk (c : Dev nD) (t : Fin cfg1.N) : (iblk1 V c 4 t : Vec Ideal S1024x1024 .bf16) = (V c main_v20 : FVec Ideal S1024x1024 .bf16) := by
  obtain ⟨-, -, -, -, -, -, -, -, -, e0, e1, -⟩ := blockIndex t
  funext y
  unfold iblk1
  rw [View.read_apply]
  show V c main_v20 _ = V c main_v20 _
  congr 1
  funext a
  apply Fin.ext
  match a with
  | ⟨0, _⟩ => show win1_4.index t 0 * 1024 + 1 * (y 0).val = (y 0).val; rw [e0]; omega
  | ⟨1, _⟩ => show win1_4.index t 1 * 1024 + 1 * (y 1).val = (y 1).val; rw [e1]; omega

/-- the context's output weights, -/
theorem w5_blk (c : Dev nD) (t : Fin cfg1.N) : (iblk1 V c 5 t : Vec Ideal S256x1024 .bf16) = (V c main_v22 : FVec Ideal S256x1024 .bf16) := by
  obtain ⟨-, -, -, -, -, -, -, -, -, -, -, e0, e1, -⟩ := blockIndex t
  funext y
  unfold iblk1
  rw [View.read_apply]
  show V c main_v22 _ = V c main_v22 _
  congr 1
  funext a
  apply Fin.ext
  match a with
  | ⟨0, _⟩ => show win1_5.index t 0 * 256 + 1 * (y 0).val = (y 0).val; rw [e0]; omega
  | ⟨1, _⟩ => show win1_5.index t 1 * 1024 + 1 * (y 1).val = (y 1).val; rw [e1]; omega

/-- the read-out weights. -/
theorem w6_blk (c : Dev nD) (t : Fin cfg1.N) : (iblk1 V c 6 t : Vec Ideal S1024x128 .bf16) = (V c main_v24 : FVec Ideal S1024x128 .bf16) := by
  obtain ⟨-, -, -, -, -, -, -, -, -, -, -, -, -, e0, e1, -⟩ := blockIndex t
  funext y
  unfold iblk1
  rw [View.read_apply]
  show V c main_v24 _ = V c main_v24 _
  congr 1
  funext a
  apply Fin.ext
  match a with
  | ⟨0, _⟩ => show win1_6.index t 0 * 1024 + 1 * (y 0).val = (y 0).val; rw [e0]; omega
  | ⟨1, _⟩ => show win1_6.index t 1 * 128 + 1 * (y 1).val = (y 1).val; rw [e1]; omega

/-- The factors of the whole batch as a [1024,128] array, from the arrays as the region finds them. -/
abbrev attnG (c : Dev nD) : FVec Ideal S1024x128 .f32 :=
  factorsArr (fun b k => (V c main_v10 : FVec Ideal S1024x1024 .f32) (ix2 b k))
    (fun j k => (V c main_v20 : FVec Ideal S1024x1024 .bf16) (ix2 k j))
    (fun j e => (V c main_v22 : FVec Ideal S256x1024 .bf16) (ix2 e j))
    (fun f j => (V c main_v24 : FVec Ideal S1024x128 .bf16) (ix2 j f))
    (ctxQuot (fun b k => (V c main_v10 : FVec Ideal S1024x1024 .f32) (ix2 b k))
      (fun s b d => (V c main_arg2 : FVec Ideal S64x1024x256 .f32) (ix3 s b d))
      (fun e k => (V c main_v14 : FVec Ideal S1024x256 .bf16) (ix2 k e))
      (fun e d => (V c main_v16 : FVec Ideal S256x256 .bf16) (ix2 d e)))

/-- Entry (p,q) of the output's block at point t sits at (128·t + p, q) of the factors. -/
theorem out_emb (t : Fin cfg1.N) (p q : Fin 128) (b' : Fin 1024) (hb : b'.val = 128 * t.val + p.val) :
    ((cfg1.win 7).blk t).view.emb (ix2 p q) = (ix2 b' q : S1024x128.Idx) := by
  obtain ⟨-, -, -, -, -, -, -, -, -, -, -, -, -, -, -, e0, e1⟩ := blockIndex t
  funext a
  apply Fin.ext
  match a with
  | ⟨0, _⟩ => show win1_7.index t 0 * 128 + 1 * p.val = b'.val; rw [e0, hb]; omega
  | ⟨1, _⟩ => show win1_7.index t 1 * 128 + 1 * q.val = q.val; rw [e1]; omega

/-- What point t writes back is block t of the factors of the whole batch: entry (p,q) is the factors of the block, the weight
    blocks are the weights, and the factors of row p of the block are those of row 128·t + p of the batch. -/
theorem flushed_eq (c : Dev nD) (t : Fin cfg1.N) :
    (dat1 (F := Ideal) V c).flushed 7 t = ((cfg1.win 7).blk t).view.read (Elt Ideal) (attnG V c) := by
  show (cfg1.win 7).cut (grid1.coords t) ((dat1 V c).after 7 t) = _
  rw [after1_7]
  funext y
  obtain ⟨p, q, rfl⟩ : ∃ (p q : Fin 128), y = ix2 p q := ⟨y 0, y 1, eq_ix2 y⟩
  have ht : t.val < 8 := lt_of_lt_of_eq t.isLt N_1
  have hb : (⟨128 * t.val + p.val, by have := p.isLt; omega⟩ : Fin 1024).val = 128 * t.val + p.val := rfl
  show out1_7 (iblk1 V c 0 t) (iblk1 V c 1 t) (iblk1 V c 2 t) (iblk1 V c 3 t) (iblk1 V c 4 t) (iblk1 V c 5 t) (iblk1 V c 6 t) (ix2 p q)
    = attnG V c (((cfg1.win 7).blk t).view.emb (ix2 p q))
  rw [out_emb t p q _ hb]
  refine (out_factors (iblk1 V c 0 t) (iblk1 V c 1 t) (iblk1 V c 2 t) (iblk1 V c 3 t) (iblk1 V c 4 t) (iblk1 V c 5 t) (iblk1 V c 6 t) p q).trans ?_
  rw [w2_blk, w3_blk, w4_blk, w5_blk, w6_blk]
  exact factors_quot_row_congr _ _ _ _ _ _ _ _ _ p _ (fun k => state_blk V c t p k _ hb) (fun s d => src_blk V c t s p d _ hb) q

/-- An index of the factors is in point t's block iff each coordinate is in the block's range on its axis. -/
theorem mem_blk (t : Fin cfg1.N) (i : S1024x128.Idx) :
    i ∈ ((cfg1.win 7).blk t).view.set ↔ ∀ a : Fin 2, win1_7.index t a * S128x128.size a ≤ (i a).val ∧ (i a).val < win1_7.index t a * S128x128.size a + S128x128.size a := by
  show i ∈ ((View.whole main_v25).slice (win1_7.rect t)).set ↔ _
  rw [View.set_slice_whole, Rect.mem_set_unit]
  exact Iff.rfl

/-- Every index of the factors is in some point's block: row r in the block of point r / 128. -/
theorem cover (i : S1024x128.Idx) : ∃ t : Fin cfg1.N, (cfg1.win 7).flush t = true ∧ i ∈ ((cfg1.win 7).blk t).view.set := by
  have hi0 : (i 0).val < 1024 := (i 0).isLt
  have hi1 : (i 1).val < 128 := (i 1).isLt
  have ht : (i 0).val / 128 < cfg1.N := by rw [show cfg1.N = 8 from N_1]; omega
  obtain ⟨-, -, -, -, -, -, -, -, -, -, -, -, -, -, -, e0, e1⟩ := blockIndex ⟨(i 0).val / 128, ht⟩
  refine ⟨⟨(i 0).val / 128, ht⟩, flush1_7 _, ?_⟩
  rw [mem_blk]
  intro a
  match a with
  | ⟨0, _⟩ =>
    show win1_7.index ⟨(i 0).val / 128, ht⟩ 0 * 128 ≤ (i 0).val ∧ (i 0).val < win1_7.index ⟨(i 0).val / 128, ht⟩ 0 * 128 + 128
    rw [e0]; show (i 0).val / 128 * 128 ≤ (i 0).val ∧ (i 0).val < (i 0).val / 128 * 128 + 128; omega
  | ⟨1, _⟩ =>
    show win1_7.index ⟨(i 0).val / 128, ht⟩ 1 * 128 ≤ (i 1).val ∧ (i 1).val < win1_7.index ⟨(i 0).val / 128, ht⟩ 1 * 128 + 128
    rw [e1]; omega

/-- After the last point the output array holds the factors of the whole batch, the context as one quotient. -/
theorem attn_arr (c : Dev nD) :
    (dat1 (F := Ideal) V c).arrAt 7 cfg1.N
      = factorsArr (fun b k => (V c main_v10 : FVec Ideal S1024x1024 .f32) (ix2 b k))
          (fun j k => (V c main_v20 : FVec Ideal S1024x1024 .bf16) (ix2 k j))
          (fun j e => (V c main_v22 : FVec Ideal S256x1024 .bf16) (ix2 e j))
          (fun f j => (V c main_v24 : FVec Ideal S1024x128 .bf16) (ix2 j f))
          (ctxQuot (fun b k => (V c main_v10 : FVec Ideal S1024x1024 .f32) (ix2 b k))
            (fun s b d => (V c main_arg2 : FVec Ideal S64x1024x256 .f32) (ix3 s b d))
            (fun e k => (V c main_v14 : FVec Ideal S1024x256 .bf16) (ix2 k e))
            (fun e d => (V c main_v16 : FVec Ideal S256x256 .bf16) (ix2 d e))) :=
  (dat1 V c).arrAt_eq_of_cover 7 (attnG V c) (fun t _ => flushed_eq V c t) cover

end Cert.KernelIdeal.AttnValue

end
-- ==== Proof.RefFactors.lean ====
/-
  The reference's attention and read-out are the specification's, with the context spelt as the sum of normalised
  weights of scores shifted by the reference's running maximum.

  The new state enters only as a function `g` of row and column: the state array is carried as it stands and is never
  opened here. The stages, each read at its coordinates with the earlier stage folded: the score of step `s` for row `b`
  and channel `e` (two contractions, clamped below at the zero word — the reference clamps twice, and a maximum taken
  twice with the same bound is the maximum taken once); the shift (the maximum fold over the 64 steps); the exponential
  of the shifted score; its sum over the steps (a float sum started at the zero word, which is 0); the weighted sum of
  the source steps; the attention output; the factors.
-/
import proofs.«120470_j13391708029287_2_alg».proof.Proof.Spec
import proofs.«120470_j13391708029287_2_alg».proof.Proof.Words
import proofs.«120470_j13391708029287_2_alg».proof.Proof.RefShift
import proofs.«120470_j13391708029287_2_alg».proof.Proof.Gen.ReferenceIdeal.Read

noncomputable section

open scoped BigOperators

namespace Cert.ReferenceIdeal.RefValue

open Cert.ReferenceIdeal Cert.ReferenceIdeal.Gen Idealize.ShloMosaic Idealize.ShloMosaic.TcCoe Idealize.ShloMosaic.ValueIdx Cert.GruAttn

/-! ## A maximum reduce over the middle axis of a [1024, 64, 256] array, read at (b, e) -/

/-- The reduced index (b, e) with step `k` put back on the middle axis is (b, k, e). -/
theorem lift_mid (h : S1024x64x256.Reduces [1] S1024x256) (b : Fin 1024) (e : Fin 256) (k : Fin (S1024x64x256.size 1)) :
    h.lift (ix2 b e) k = ix3 b (⟨k.val, k.isLt⟩ : Fin 64) e :=
  funext fun a => Fin.ext (by match a with | ⟨0, _⟩ => rfl | ⟨1, _⟩ => rfl | ⟨2, _⟩ => rfl)

/-- A host reduce with the maximum as its body over the 64 steps is, at (b, e), the fold of the maximum over the steps
    from the initial value's element (the maximum is commutative and associative, so the fold's order is immaterial). -/
theorem reduce_max_mid (y : FVec Ideal S1024x64x256 .f32) (init : FVec Ideal S_ .f32) (b : Fin 1024) (e : Fin 256) :
    Host.reduce FloatOps.maximumf y init reducesTo_S1024x64x256_S1024x256_d1 h_S_ (ix2 b e)
      = (Finset.univ : Finset (Fin 64)).fold max (init (Shape.Idx.first h_S_)) (fun s => y (ix3 b s e)) := by
  have h : S1024x64x256.Reduces [1] S1024x256 := by decide
  rw [Host.reduce_eq_fold_single FloatOps.maximumf y init reducesTo_S1024x64x256_S1024x256_d1 h h_S_]
  have hf : (y ∘ h.lift (ix2 b e)) = fun k : Fin 64 => y (ix3 b k e) := funext fun k => congrArg y (lift_mid h b e k)
  exact congrArg (fun f => Finset.fold max (init (Shape.Idx.first h_S_)) f (Finset.univ : Finset (Fin 64))) hf

variable (x0 : (⟨S1024x256, .f32⟩ : BufTy).Contents (Elt Ideal)) (x1 : (⟨S1024x1024, .f32⟩ : BufTy).Contents (Elt Ideal))
  (x2 : (⟨S64x1024x256, .f32⟩ : BufTy).Contents (Elt Ideal)) (x3 : (⟨S2048x256, .f32⟩ : BufTy).Contents (Elt Ideal))
  (x4 : (⟨S2048x1024, .f32⟩ : BufTy).Contents (Elt Ideal)) (x5 : (⟨S2048, .f32⟩ : BufTy).Contents (Elt Ideal))
  (x6 : (⟨S1024x256, .f32⟩ : BufTy).Contents (Elt Ideal)) (x7 : (⟨S1024x1024, .f32⟩ : BufTy).Contents (Elt Ideal))
  (x8 : (⟨S1024, .f32⟩ : BufTy).Contents (Elt Ideal)) (x9 : (⟨S256x1280, .f32⟩ : BufTy).Contents (Elt Ideal))
  (x10 : (⟨S1024x1280, .f32⟩ : BufTy).Contents (Elt Ideal)) (x11 : (⟨S128x1024, .f32⟩ : BufTy).Contents (Elt Ideal))

local notation "gA" => (fun (b : Fin 1024) (k : Fin 1024) => Read.val_main_v39 (F := Ideal) x0 x1 x3 x4 x5 x6 x7 x8 (ix2 b k))
local notation "srcA" => (fun (s : Fin 64) (b : Fin 1024) (d : Fin 256) => x2 (ix3 s b d))
local notation "AgA" => (fun (e : Fin 256) (k : Fin 1024) => x9 (ix2 e (lo1280 k)))
local notation "AsA" => (fun (e : Fin 256) (d : Fin 256) => x9 (ix2 e (hi1280 d)))
local notation "OgA" => (fun (j : Fin 1024) (k : Fin 1024) => x10 (ix2 j (lo1280 k)))
local notation "OsA" => (fun (j : Fin 1024) (e : Fin 256) => x10 (ix2 j (hi1280 e)))
local notation "RfA" => (fun (f : Fin 128) (j : Fin 1024) => x11 (ix2 f j))

/-! ## The stages -/

/-- The score of step `s` for row `b`, channel `e`: the state's contraction (the same for every step) plus the step's,
    clamped below at the zero word. -/
theorem score_at (b : Fin 1024) (s : Fin 64) (e : Fin 256) :
    Read.val_main_v50 (F := Ideal) x0 x1 x2 x3 x4 x5 x6 x7 x8 x9 (ix3 b s e) = score gA srcA AgA AsA s b e := by
  have e1 : ∀ k : Fin 1024, Read.lidx_main_v44 (Read.idx_main_v45 (Read.idx_main_v47 (ix3 b s e))) k = ix2 b k := fun k =>
    funext fun a => Fin.ext (by match a with | ⟨0, _⟩ => rfl | ⟨1, _⟩ => rfl)
  have e2 : ∀ k : Fin 1024, Read.idx_main_v41 (Read.idx_main_v43 (Read.ridx_main_v44 (Read.idx_main_v45 (Read.idx_main_v47 (ix3 b s e))) k))
      = ix2 e (lo1280 k) := fun k =>
    funext fun a => Fin.ext (by match a with | ⟨0, _⟩ => rfl | ⟨1, _⟩ => rfl)
  have e3 : ∀ d : Fin 256, Read.idx_main_v40 (Read.lidx_main_v46 (ix3 b s e) d) = ix3 s b d := fun d =>
    funext fun a => Fin.ext (by match a with | ⟨0, _⟩ => rfl | ⟨1, _⟩ => rfl | ⟨2, _⟩ => rfl)
  have e4 : ∀ d : Fin 256, Read.idx_main_v42 (Read.ridx_main_v46 (ix3 b s e) d) = ix2 e (hi1280 d) := fun d =>
    funext fun a => Fin.ext (by match a with | ⟨0, _⟩ => rfl | ⟨1, _⟩ => rfl)
  rw [Read.val_main_v50_apply, Read.val_main_v49_apply, Read.val_main_v48_apply, Read.val_main_v47_apply,
    Read.val_main_v45_apply, Read.val_main_v44_apply, Read.val_main_v46_apply, Read.val_main_call2_v0_apply,
    Read.val_main_call2_cst_apply, Read.val_main_call1_v0_apply, Read.val_main_call1_cst_apply]
  simp only [Read.val_main_v43_apply, Read.val_main_v41_apply, Read.val_main_v40_apply, Read.val_main_v42_apply,
    e1, e2, e3, e4, Ideal.addf_def, Ideal.maximumf_def, Ideal.ofBits_def, max_assoc, max_self, score, stateTerm, srcTerm]

/-- The shift of row `b`, channel `e`: the maximum of the negative-infinity word and the maximum fold of the scores. -/
theorem shift_at (b : Fin 1024) (e : Fin 256) :
    Read.val_main_v53 (F := Ideal) x0 x1 x2 x3 x4 x5 x6 x7 x8 x9 (ix2 b e) = refShift gA srcA AgA AsA b e := by
  rw [Read.val_main_v53_apply, Read.val_main_v52_apply, Read.val_main_cst_8_apply]
  unfold Read.val_main_v51
  rw [reduce_max_mid, Read.val_main_cst_7_apply]
  simp only [score_at, Ideal.maximumf_def, Ideal.ofBits_def, refShift]

/-- The exponential of the shifted score. -/
theorem expw_at (b : Fin 1024) (s : Fin 64) (e : Fin 256) :
    Read.val_main_v57 (F := Ideal) x0 x1 x2 x3 x4 x5 x6 x7 x8 x9 (ix3 b s e)
      = Ideal.exp (score gA srcA AgA AsA s b e - refShift gA srcA AgA AsA b e) := by
  have e1 : Read.idx_main_v54 (Read.idx_main_v55 (ix3 b s e)) = ix2 b e :=
    funext fun a => Fin.ext (by match a with | ⟨0, _⟩ => rfl | ⟨1, _⟩ => rfl)
  rw [Read.val_main_v57_apply, Read.val_main_v56_apply, Read.val_main_v55_apply, Read.val_main_v54_apply, e1,
    score_at, shift_at]
  rfl

/-- The sum of those exponentials over the 64 steps. -/
theorem denom_at (b : Fin 1024) (e : Fin 256) :
    Read.val_main_v58 (F := Ideal) x0 x1 x2 x3 x4 x5 x6 x7 x8 x9 (ix2 b e)
      = ∑ s : Fin 64, Ideal.exp (score gA srcA AgA AsA s b e - refShift gA srcA AgA AsA b e) := by
  have e1 : ∀ k : Fin 64, Read.idx_main_v58 (ix2 b e) k = ix3 b k e := fun k =>
    funext fun a => Fin.ext (by match a with | ⟨0, _⟩ => rfl | ⟨1, _⟩ => rfl | ⟨2, _⟩ => rfl)
  rw [Read.val_main_v58_apply, Read.val_main_cst_9_apply]
  simp only [e1, expw_at, Ideal.ofBits_def, Ideal.ofBits_zero_f32, zero_add]

/-- A source step's entry times its normalised weight. -/
theorem weighted_at (b : Fin 1024) (s : Fin 64) (e : Fin 256) :
    Read.val_main_v62 (F := Ideal) x0 x1 x2 x3 x4 x5 x6 x7 x8 x9 (ix3 b s e)
      = x2 (ix3 s b e) * Ideal.div (Ideal.exp (score gA srcA AgA AsA s b e - refShift gA srcA AgA AsA b e))
          (∑ s' : Fin 64, Ideal.exp (score gA srcA AgA AsA s' b e - refShift gA srcA AgA AsA b e)) := by
  have e1 : Read.idx_main_v59 (Read.idx_main_v60 (ix3 b s e)) = ix2 b e :=
    funext fun a => Fin.ext (by match a with | ⟨0, _⟩ => rfl | ⟨1, _⟩ => rfl)
  have e2 : Read.idx_main_v40 (ix3 b s e) = ix3 s b e :=
    funext fun a => Fin.ext (by match a with | ⟨0, _⟩ => rfl | ⟨1, _⟩ => rfl | ⟨2, _⟩ => rfl)
  rw [Read.val_main_v62_apply, Read.val_main_v61_apply, Read.val_main_v60_apply, Read.val_main_v59_apply, e1,
    Read.val_main_v40_apply, e2, expw_at, denom_at]
  rfl

/-- The context: the weighted sum of the source steps (a float sum started at the zero word). -/
theorem ctx_at (b : Fin 1024) (e : Fin 256) :
    Read.val_main_v63 (F := Ideal) x0 x1 x2 x3 x4 x5 x6 x7 x8 x9 (ix2 b e)
      = ctxShift gA srcA AgA AsA (refShift gA srcA AgA AsA) b e := by
  have e1 : ∀ k : Fin 64, Read.idx_main_v63 (ix2 b e) k = ix3 b k e := fun k =>
    funext fun a => Fin.ext (by match a with | ⟨0, _⟩ => rfl | ⟨1, _⟩ => rfl | ⟨2, _⟩ => rfl)
  rw [Read.val_main_v63_apply, Read.val_main_cst_10_apply]
  simp only [e1, weighted_at, Ideal.ofBits_def, Ideal.ofBits_zero_f32, zero_add, ctxShift]

/-- The attention output: the hyperbolic tangent of the state's and the context's contractions. -/
theorem attn_at (b : Fin 1024) (j : Fin 1024) :
    Read.val_main_v71 (F := Ideal) x0 x1 x2 x3 x4 x5 x6 x7 x8 x9 x10 (ix2 b j)
      = attnOut gA OgA OsA (ctxShift gA srcA AgA AsA (refShift gA srcA AgA AsA)) b j := by
  have e1 : ∀ k : Fin 1024, Read.lidx_main_v67 (ix2 b j) k = ix2 b k := fun k =>
    funext fun a => Fin.ext (by match a with | ⟨0, _⟩ => rfl | ⟨1, _⟩ => rfl)
  have e2 : ∀ k : Fin 1024, Read.idx_main_v64 (Read.idx_main_v66 (Read.ridx_main_v67 (ix2 b j) k)) = ix2 j (lo1280 k) := fun k =>
    funext fun a => Fin.ext (by match a with | ⟨0, _⟩ => rfl | ⟨1, _⟩ => rfl)
  have e3 : ∀ k : Fin 256, Read.lidx_main_v69 (ix2 b j) k = ix2 b k := fun k =>
    funext fun a => Fin.ext (by match a with | ⟨0, _⟩ => rfl | ⟨1, _⟩ => rfl)
  have e4 : ∀ k : Fin 256, Read.idx_main_v65 (Read.idx_main_v68 (Read.ridx_main_v69 (ix2 b j) k)) = ix2 j (hi1280 k) := fun k =>
    funext fun a => Fin.ext (by match a with | ⟨0, _⟩ => rfl | ⟨1, _⟩ => rfl)
  rw [Read.val_main_v71_apply, Read.val_main_v70_apply, Read.val_main_v67_apply, Read.val_main_v69_apply]
  simp only [Read.val_main_v66_apply, Read.val_main_v64_apply, Read.val_main_v68_apply, Read.val_main_v65_apply,
    e1, e2, e3, e4, ctx_at, Ideal.addf_def, Ideal.hostUnary_tanh_def, attnOut]

/-- The factors: the attention output contracted with the read-out matrix. -/
theorem factors_at (b : Fin 1024) (f : Fin 128) :
    Read.val_main_v73 (F := Ideal) x0 x1 x2 x3 x4 x5 x6 x7 x8 x9 x10 x11 (ix2 b f)
      = factors gA OgA OsA RfA (ctxShift gA srcA AgA AsA (refShift gA srcA AgA AsA)) b f := by
  have e1 : ∀ k : Fin 1024, Read.lidx_main_v73 (ix2 b f) k = ix2 b k := fun k =>
    funext fun a => Fin.ext (by match a with | ⟨0, _⟩ => rfl | ⟨1, _⟩ => rfl)
  have e2 : ∀ k : Fin 1024, Read.idx_main_v72 (Read.ridx_main_v73 (ix2 b f) k) = ix2 f k := fun k =>
    funext fun a => Fin.ext (by match a with | ⟨0, _⟩ => rfl | ⟨1, _⟩ => rfl)
  rw [Read.val_main_v73_apply]
  simp only [Read.val_main_v72_apply, e1, e2, attn_at, factors]

/-- The reference's factors, as an array, are the specification's at the reference's state, with the context in its
    shifted spelling at the reference's shift. -/
theorem factors_eq :
    Read.val_main_v73 (F := Ideal) x0 x1 x2 x3 x4 x5 x6 x7 x8 x9 x10 x11
      = factorsArr (fun b k => Read.val_main_v39 (F := Ideal) x0 x1 x3 x4 x5 x6 x7 x8 (ix2 b k))
          (fun j k => x10 (ix2 j (lo1280 k))) (fun j e => x10 (ix2 j (hi1280 e))) (fun f j => x11 (ix2 f j))
          (ctxShift (fun b k => Read.val_main_v39 (F := Ideal) x0 x1 x3 x4 x5 x6 x7 x8 (ix2 b k))
            (fun s b d => x2 (ix3 s b d)) (fun e k => x9 (ix2 e (lo1280 k))) (fun e d => x9 (ix2 e (hi1280 d)))
            (refShift (fun b k => Read.val_main_v39 (F := Ideal) x0 x1 x3 x4 x5 x6 x7 x8 (ix2 b k))
              (fun s b d => x2 (ix3 s b d)) (fun e k => x9 (ix2 e (lo1280 k))) (fun e d => x9 (ix2 e (hi1280 d))))) := by
  funext i
  obtain ⟨b, f, rfl⟩ : ∃ (b : Fin 1024) (f : Fin 128), i = ix2 b f := ⟨i 0, i 1, eq_ix2 i⟩
  exact factors_at x0 x1 x2 x3 x4 x5 x6 x7 x8 x9 x10 x11 b f

end Cert.ReferenceIdeal.RefValue

end
-- ==== Proof.lean ====
/-
  One step of a gated recurrent cell followed by additive attention over 64 source steps and a linear read-out, computed
  by a two-region kernel, against its plain array-program reference: both end with the same new state [1024, 1024] and
  the same factors [1024, 128], as extended reals, whenever every input is finite.

  The cell.  The kernel's first region computes, block of 256 rows by block, the gates σ(x·Wxᵀ + h·Whᵀ + b), the candidate
  tanh(x·Wcᵀ + (r·h)·Wrcᵀ + b') and the clamped mix u·h + (1 − u)·c from transposed, re-typed weights; the reference
  computes the same from the weights as given, with the sigmoid spelt 1 / (1 + e^(−z)). On the extended reals a change
  of float format is the identity, the sigmoid is that expression by definition, and a product of a [rows, k] block
  with a [k, n] matrix is the same sum over k wherever the rows sit: the two new states are one function of the
  arguments, with no condition on them.

  The attention.  Both programs form the scores max(state·Agᵀ + src·Asᵀ, 0). The kernel then takes ONE quotient,
  (Σ_s src·e^score) / (Σ_s e^score); the reference takes a softmax over the steps — scores shifted by their maximum,
  exponentiated, divided by their sum — and sums src against the weights. These agree on real numbers (e^(x − M) =
  e^x·e^(−M); the positive factor cancels; the common denominator moves out of the sum) and not on the extended reals in
  general, so here the precondition is used: the source steps and the score weights are finite, the new state is
  clamped into [−5, 5], hence every score, and their maximum, is a real number. The read-out after the context is the
  same two contractions, tanh, and one more contraction on both sides.

  The frames are the generated ones (the reference's is its generated run with the results dropped); the idealization
  rewrote no operation, so `preserves` has nothing to state.
-/
import proofs.«120470_j13391708029287_2_alg».proof.Defs
import proofs.«120470_j13391708029287_2_alg».proof.Proof.Gen.Kernel
import proofs.«120470_j13391708029287_2_alg».proof.Proof.Gen.Kernel.Skeleton
import proofs.«120470_j13391708029287_2_alg».proof.Proof.Gen.Kernel.Launch
import proofs.«120470_j13391708029287_2_alg».proof.Proof.Gen.Kernel.Points
import proofs.«120470_j13391708029287_2_alg».proof.Proof.Gen.Kernel.Frame
import proofs.«120470_j13391708029287_2_alg».proof.Proof.Gen.KernelIdeal
import proofs.«120470_j13391708029287_2_alg».proof.Proof.Gen.KernelIdeal.Skeleton
import proofs.«120470_j13391708029287_2_alg».proof.Proof.Gen.KernelIdeal.Launch
import proofs.«120470_j13391708029287_2_alg».proof.Proof.Gen.KernelIdeal.Points
import proofs.«120470_j13391708029287_2_alg».proof.Proof.Gen.KernelIdeal.Frame
import proofs.«120470_j13391708029287_2_alg».proof.Proof.Gen.ReferenceIdeal
import proofs.«120470_j13391708029287_2_alg».proof.Proof.Gen.ReferenceIdeal.Run
import proofs.«120470_j13391708029287_2_alg».proof.Proof.Gen.ReferenceIdeal.Read
import proofs.«120470_j13391708029287_2_alg».proof.Proof.Gen.Pre_finite_inputs
import proofs.«120470_j13391708029287_2_alg».proof.Proof.Algebraic
import proofs.«120470_j13391708029287_2_alg».proof.Proof.CellArray
import proofs.«120470_j13391708029287_2_alg».proof.Proof.AttnArray
import proofs.«120470_j13391708029287_2_alg».proof.Proof.RefFactors
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Equal results: the cell's region and the attention region block by block, the reference operation by operation,
    and the two contexts agreeing on the reals. -/
theorem algebraic : Cert.algebraic_KernelIdeal_ReferenceIdeal :=
  Parts.algebraic Cert.KernelIdeal.CellValue.cell_arr Cert.KernelIdeal.AttnValue.attn_arr
    (fun x0 x1 x2 x3 x4 x5 x6 x7 x8 x9 x10 x11 => Cert.ReferenceIdeal.RefValue.factors_eq x0 x1 x2 x3 x4 x5 x6 x7 x8 x9 x10 x11)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
